-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x40 .f32) (main_arg14 : FVec F S40 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x40 .f32 := Host.absf main_arg13
  let main_cst_22 : FVec F S_ .f32 := constant S_ .f32 0x7F800000#32
  let main_v60 : FVec F S128x40 .f32 := broadcastInDim S128x40 ![] bcast_S_S128x40 main_cst_22
  let main_v61 : IVec S128x40 1 := cmpf .olt main_v59 main_v60
  let main_c_23 : IVec S_ 1 := constantI S_ 1 1#1
  let main_v62 : IVec S_ 1 := (fun x v => Host.reduce IntOp.andi x v reducesTo_S128x40_S_d0_1 h_S_) main_v61 main_c_23
  let main_v63 : IVec S_ 1 := andi main_v58 main_v62
  let main_v64 : FVec F S40 .f32 := Host.absf main_arg14
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x40 .f32) (main_arg14 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x40 .f32) (main_arg14 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x40 .f32) (main_arg14 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩

abbrev nBuf : Space → Nat
  | .hbm => 80
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x40, .f32⟩
  | .hbm, ⟨14, _⟩ => ⟨S40, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S1x128, .f32⟩
  | .hbm, ⟨77, _⟩ => ⟨S1x128, .f32⟩
  | .hbm, ⟨78, _⟩ => ⟨S1x40, .f32⟩
  | .hbm, ⟨79, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x40, .f32⟩
  | .local _ .vmem, ⟨34, _⟩ => ⟨S1x40, .f32⟩
  | .local _ .vmem, ⟨35, _⟩ => ⟨S5000x40, .f32⟩
  | .local _ .vmem, ⟨36, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg10_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem10_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x40 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x40 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x40 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x40.size a ≤ S128x40.size a
  hwx2_8 : ∀ i : grid2.Coords, EltTy.bits .f32 = 32 ∨ (Rect.block (s := S128x40) S128x40.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x40.size a ≤ S1x40.size a
  hwx2_9 : ∀ i : grid2.Coords, EltTy.bits .f32 = 32 ∨ (Rect.block (s := S1x40) S1x40.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x40.size a ≤ S50000x40.size a
  hwx2_10 : ∀ i : grid2.Coords, EltTy.bits .f32 = 32 ∨ (Rect.block (s := S50000x40) S5000x40.size (cc2_transform_10 i) (hinb2_10 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S128x40.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48) S1x40.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v49) S5000x40.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x40, .f32⟩
  | 14 => ⟨S40, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S_, .f32⟩
  | 33 => ⟨S600000, .f32⟩
  | 34 => ⟨S_, .f32⟩
  | 35 => ⟨S50000, .f32⟩
  | 36 => ⟨S600000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S_, .f32⟩
  | 68 => ⟨S600000, .f32⟩
  | 69 => ⟨S_, .f32⟩
  | 70 => ⟨S50000, .f32⟩
  | 71 => ⟨S600000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S_, .f32⟩
  | 103 => ⟨S600000, .f32⟩
  | 104 => ⟨S_, .f32⟩
  | 105 => ⟨S50000, .f32⟩
  | 106 => ⟨S600000x1, .i32⟩
  | 107 => ⟨S50000, .f32⟩
  | 108 => ⟨S_, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x40, .f32⟩
  | 4 => ⟨S1x40, .f32⟩
  | 5 => ⟨S50000x40, .f32⟩
  | 6 => ⟨S50000x40, .f32⟩
  | 7 => ⟨S_, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x40, .f32⟩
  | 14 => ⟨S50000x40, .f32⟩
  | 15 => ⟨S50000x40, .f32⟩
  | 16 => ⟨S_, .f32⟩
  | 17 => ⟨S50000, .f32⟩
  | 18 => ⟨S50000x1, .f32⟩
  | 19 => ⟨S50000x1, .f32⟩
  | 20 => ⟨S50000x40, .f32⟩
  | 21 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call3_cst : Ref sig .tc := ⟨.hbm, 86, rfl⟩
abbrev main_call3_v0 : Ref sig .tc := ⟨.hbm, 87, rfl⟩
abbrev main_v53 : Ref sig .tc := ⟨.hbm, 88, rfl⟩
abbrev main_c_10 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_call4_v0 : Ref sig .tc := ⟨.hbm, 109, rfl⟩
abbrev main_call4_v1 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call5_cst : Ref sig .tc := ⟨.hbm, 121, rfl⟩
abbrev main_call5_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_call6_cst : Ref sig .tc := ⟨.hbm, 128, rfl⟩
abbrev main_call6_v0 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_call7_cst : Ref sig .tc := ⟨.hbm, 135, rfl⟩
abbrev main_call7_v0 : Ref sig .tc := ⟨.hbm, 136, rfl⟩
abbrev main_call7_cst_0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_v6 : Ref sig .tc := ⟨.hbm, 143, rfl⟩
abbrev main_call7_cst_1 : Ref sig .tc := ⟨.hbm, 144, rfl⟩
abbrev main_call7_v7 : Ref sig .tc := ⟨.hbm, 145, rfl⟩
abbrev main_call7_v8 : Ref sig .tc := ⟨.hbm, 146, rfl⟩
abbrev main_call7_v9 : Ref sig .tc := ⟨.hbm, 147, rfl⟩
abbrev main_call7_v10 : Ref sig .tc := ⟨.hbm, 148, rfl⟩
abbrev main_v88 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with every unscoped buffer named at its end.

  @main is eight segments: three stretches of host operations, the first pallas_call, a stretch, the second call, a
  stretch, the third call.  The contents of the TensorCore's buffers at each boundary are a fold from the launch
  memory: a stretch applies its operations, a call replaces its arrays by what its write-backs leave.  The launch
  theorem for such a chain asks for three things besides the segments: the ghost state the launch deals, the first
  thread state made from the launch memory, and the last thread state read against a final state.  Its conclusion
  is kept whole here: every weakly fair execution terminates without a fault in a state whose unscoped buffers hold
  the last boundary's contents, so the result buffer can be read off it as well as the arguments.
-/
import proofs.«178627_j91216515432812_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells and their launch tokens. -/
abbrev u₀ : UR sig nD τ := initOf (Pipeline.cells cfgs cellOf_inj) (Pipeline.launchToks cfgs cellOf_inj)

/-- Owning the launch element is owning the pipeline library's element; no core needs a ghost resource of its own. -/
theorem launch_ghost : (ownU (u₀) : sProp 𝕄)
    ⊢ |={Set.univ}=> iprop(BI.own (emb₁ u₀) ∗ bigSep Finset.univ (fun _ : Dev nD => (BI.emp : sProp 𝕄))) := by
  iintro Hu
  imodintro
  isplitl [Hu]
  · iapply (show (ownU u₀ : sProp 𝕄) ⊢ BI.own (emb₁ u₀) from .rfl)
    iexact Hu
  · rw [BI.bigSep_emp_const]
    iempintro

/-- The first thread state of a core: its unscoped buffers at the launch contents, its generator register, and
    nothing owed. -/
abbrev T₀ (c : Dev nD) : sProp 𝕄 :=
  iprop(StableHlo.held (c : Thread nD τ) (Pipeline.ucRefs τ sig) (W0 m ρ c) ∗ R c)

/-- The last thread state holds every unscoped buffer at the last boundary's contents, so a final state agrees with
    those contents at each of them. -/
theorem last_state_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W8 m ρ c b⌝ ∗ SI s') := by
  iintro ⟨⟨Hheld, -⟩, HSI⟩
  unfold StableHlo.held
  imodintro
  iapply (pointsTo_read_all (Pipeline.ucRefs τ sig) (fun b => (((c : Thread nD τ)).1, b)) (W8 m ρ c) s')
  isplitl [Hheld] <;> iassumption

set_option backward.isDefEq.respectTransparency.types false in
/-- Every weakly fair execution of @main terminates, nothing faulting, with every unscoped buffer of every core at
    the contents the last boundary of the fold names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp)) (u₀ := u₀) (hu₀ := launch_ghost)
    (T₀ := T₀ m ρ) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      -- core by core: the unscoped buffers at the launch memory are the first boundary's contents held whole
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      iexists ∅
      iexact Howes)
    (QY := fun c s => ∀ b ∈ Pipeline.ucRefs τ sig, s.mem (((c : Thread nD τ)).1, b) = W8 m ρ c b)
    (hfin := last_state_read m ρ)
    (hQ := fun s h => h)

end Cert.KernelIdeal.RunV

end
-- ==== Proof.Spec.lean ====
/-
  The network as one function of its inputs.

  A node table h : [50000, 128] and an edge list E : [2, 600000] (row 0 the sources, row 1 the destinations):
    deg(n)    = the number of edges whose destination is n (a scatter-add of ones into zeros);
    d(n)      = max(1, deg(n));
    agg(h)(n, k) = the sum of h(src e, k) over the edges e whose destination is n (a gather of rows of h at the
                sources, wrapped at negative indices, then a scatter-add at the destinations);
    layer     = relu( (agg(h) / d) · Wl + bl + h · Wr ), the division row by row;
    logits    = relu( h · W1 + b1 ) · W2 + b2;
    out       = z - max_row(z) - log( sum_row exp(z - max_row(z)) ), z the logits.
  Three layers, then the logits and the row-wise log-softmax.  Every function below is spelt operation by operation
  as the host computes it, so that a stretch of host operations evaluates to it literally.
-/
import proofs.«178627_j91216515432812_2_alg».proof.ReferenceIdeal
import Idealize.ShloMosaic.PureOps.Ideal

noncomputable section

namespace Cert.Sage

open Idealize.ShloMosaic Cert.ReferenceIdeal

variable {F : FTy → Type} [FloatOps F] [Facts]

open Facts₀ Facts

/-- The contents of a buffer of the given shape and element type. -/
abbrev Arr (F : FTy → Type) (S : Shape) (e : EltTy) : Type := (⟨S, e⟩ : BufTy).Contents (Elt F)

/-- Row 0 of the edge list: the source node of every edge. -/
def srcOf (E : Arr F S2x600000 .i32) : Arr F S600000 .i32 :=
  shapeCast S600000 (extractStridedSlice S1x600000 ![0, 0] E slices_S2x600000_S1x600000_0_0) shapeCasts_S1x600000_S600000

/-- Row 1 of the edge list: the destination node of every edge. -/
def dstOf (E : Arr F S2x600000 .i32) : Arr F S600000 .i32 :=
  shapeCast S600000 (extractStridedSlice S1x600000 ![1, 0] E slices_S2x600000_S1x600000_1_0) shapeCasts_S1x600000_S600000

/-- The in-degree of every node: ones added into zeros at the destinations. -/
def deg (dst : Arr F S600000 .i32) : Arr F S50000 .f32 :=
  Host.scatterAdd scatter_S50000_S600000x1_S600000_n_0_0_1 (broadcastInDim S50000 ![] bcast_S_S50000 (constant S_ .f32 0x00000000#32))
    (broadcastInDim S600000x1 ![0] bcast_S600000_S600000x1_0 dst) (broadcastInDim S600000 ![] bcast_S_S600000 (constant S_ .f32 0x3F800000#32))

/-- The in-degree clipped below at one. -/
def dcl (dst : Arr F S600000 .i32) : Arr F S50000 .f32 :=
  maximumf (broadcastInDim S50000 ![] bcast_S_S50000 (id (constant S_ .f32 0x3F800000#32))) (deg dst)

/-- The gather's start indices: a negative source index wrapped by the number of nodes, as a column. -/
def gidx (src : Arr F S600000 .i32) : Arr F S600000x1 .i32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The neighbour sum: the rows of `h` at the sources, added into zeros at the destinations. -/
def agg (src dst : Arr F S600000 .i32) (h : Arr F S50000x128 .f32) : Arr F S50000x128 .f32 :=
  Host.scatterAdd scatter_S50000x128_S600000x1_S600000x128_1_0_0_1 (broadcastInDim S50000x128 ![] bcast_S_S50000x128 (constant S_ .f32 0x00000000#32))
    (broadcastInDim S600000x1 ![0] bcast_S600000_S600000x1_0 dst) (Host.gather gather_S50000x128_S600000x1_S600000x128_1_0_n_n_0_1_1128 h (gidx src))

/-- One layer from a neighbour sum `A`, the node table `h` and the clipped degrees `D`: relu((A / D)·Wl + bl + h·Wr). -/
def layerR (A h : Arr F S50000x128 .f32) (D : Arr F S50000 .f32) (Wl : Arr F S128x128 .f32) (bl : Arr F S128 .f32) (Wr : Arr F S128x128 .f32) :
    Arr F S50000x128 .f32 :=
  maximumf (addf (addf (Host.dotGeneral dot_S50000x128_S128x128_S50000x128_1_0_0_1_n_n none
        (Host.divf A (broadcastInDim S50000x128 ![0, 1] bcast_S50000x1_S50000x128_0_1 (broadcastInDim S50000x1 ![0] bcast_S50000_S50000x1_0 D))) Wl)
      (broadcastInDim S50000x128 ![0, 1] bcast_S1x128_S50000x128_0_1 (broadcastInDim S1x128 ![1] bcast_S128_S1x128_1 bl)))
      (Host.dotGeneral dot_S50000x128_S128x128_S50000x128_1_0_0_1_n_n none h Wr))
    (broadcastInDim S50000x128 ![] bcast_S_S50000x128 (constant S_ .f32 0x00000000#32))

/-- One layer of the network on the graph. -/
def sageR (src dst : Arr F S600000 .i32) (h : Arr F S50000x128 .f32) (Wl : Arr F S128x128 .f32) (bl : Arr F S128 .f32) (Wr : Arr F S128x128 .f32) :
    Arr F S50000x128 .f32 :=
  layerR (agg src dst h) h (dcl dst) Wl bl Wr

/-- The classifier's logits: relu(h·W1 + b1)·W2 + b2. -/
def logitsR (h : Arr F S50000x128 .f32) (W1 : Arr F S128x128 .f32) (b1 : Arr F S128 .f32) (W2 : Arr F S128x40 .f32) (b2 : Arr F S40 .f32) :
    Arr F S50000x40 .f32 :=
  addf (Host.dotGeneral dot_S50000x128_S128x40_S50000x40_1_0_0_1_n_n none
      (maximumf (addf (Host.dotGeneral dot_S50000x128_S128x128_S50000x128_1_0_0_1_n_n none h W1)
          (broadcastInDim S50000x128 ![0, 1] bcast_S1x128_S50000x128_0_1 (broadcastInDim S1x128 ![1] bcast_S128_S1x128_1 b1)))
        (broadcastInDim S50000x128 ![] bcast_S_S50000x128 (constant S_ .f32 0x00000000#32))) W2)
    (broadcastInDim S50000x40 ![0, 1] bcast_S1x40_S50000x40_0_1 (broadcastInDim S1x40 ![1] bcast_S40_S1x40_1 b2))

/-- A row's maximum (from minus infinity), repeated along the row. -/
def rowMaxR (Z : Arr F S50000x40 .f32) : Arr F S50000x40 .f32 :=
  broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf Z (constant S_ .f32 0xFF800000#32) reducesTo_S50000x40_S50000_d1 h_S_)))

/-- The row-wise log-softmax. -/
def lsmR (Z : Arr F S50000x40 .f32) : Arr F S50000x40 .f32 :=
  subf (subf Z (rowMaxR Z))
    (broadcastInDim S50000x40 ![0, 1] bcast_S50000x1_S50000x40_0_1 (Host.log (broadcastInDim S50000x1 ![0] bcast_S50000_S50000x1_0
      (Host.reduceAdd (Host.exp (subf Z (rowMaxR Z))) (constant S_ .f32 0x00000000#32) reducesTo_S50000x40_S50000_d1 h_S_))))

/-- The whole network. -/
def outR (x : Arr F S50000x128 .f32) (E : Arr F S2x600000 .i32)
    (Wl1 : Arr F S128x128 .f32) (bl1 : Arr F S128 .f32) (Wr1 : Arr F S128x128 .f32)
    (Wl2 : Arr F S128x128 .f32) (bl2 : Arr F S128 .f32) (Wr2 : Arr F S128x128 .f32)
    (Wl3 : Arr F S128x128 .f32) (bl3 : Arr F S128 .f32) (Wr3 : Arr F S128x128 .f32)
    (W1 : Arr F S128x128 .f32) (b1 : Arr F S128 .f32) (W2 : Arr F S128x40 .f32) (b2 : Arr F S40 .f32) : Arr F S50000x40 .f32 :=
  lsmR (logitsR (sageR (srcOf E) (dstOf E) (sageR (srcOf E) (dstOf E) (sageR (srcOf E) (dstOf E) x Wl1 bl1 Wr1) Wl2 bl2 Wr2) Wl3 bl3 Wr3) W1 b1 W2 b2)

end Cert.Sage

end
-- ==== Proof.SpecPieces.lean ====
/-
  The specification's layer and head, piece by piece.

  The same operations as the specification's `layerR`, `logitsR` and `lsmR`, cut where the host program calls an
  outlined function: the clip of the degrees, the dense step before its relu, the relu, the hidden layer before its
  relu, the logits, and the log-softmax's five pieces.  Each is a function of arrays of stated shapes, so that the
  value of a short stretch of host operations can be stated as one of them applied to the buffers' contents.  Their
  compositions are the specification's functions by unfolding.
-/
import proofs.«178627_j91216515432812_2_alg».proof.Proof.Spec

noncomputable section

namespace Cert.Sage

open Idealize.ShloMosaic Cert.ReferenceIdeal

variable {F : FTy → Type} [FloatOps F] [Facts]

open Facts₀ Facts

/-- The clip of the degrees `g` below at the bound `b`. -/
def clipR (b : Arr F S_ .f32) (g : Arr F S50000 .f32) : Arr F S50000 .f32 :=
  maximumf (broadcastInDim S50000 ![] bcast_S_S50000 (id b)) g

/-- The dense step before its relu. -/
def denseR (A h : Arr F S50000x128 .f32) (D : Arr F S50000 .f32) (Wl : Arr F S128x128 .f32) (bl : Arr F S128 .f32) (Wr : Arr F S128x128 .f32) :
    Arr F S50000x128 .f32 :=
  addf (addf (Host.dotGeneral dot_S50000x128_S128x128_S50000x128_1_0_0_1_n_n none
      (Host.divf A (broadcastInDim S50000x128 ![0, 1] bcast_S50000x1_S50000x128_0_1 (broadcastInDim S50000x1 ![0] bcast_S50000_S50000x1_0 D))) Wl)
    (broadcastInDim S50000x128 ![0, 1] bcast_S1x128_S50000x128_0_1 (broadcastInDim S1x128 ![1] bcast_S128_S1x128_1 bl)))
    (Host.dotGeneral dot_S50000x128_S128x128_S50000x128_1_0_0_1_n_n none h Wr)

/-- The relu of a [50000, 128] table. -/
def reluR (x : Arr F S50000x128 .f32) : Arr F S50000x128 .f32 :=
  maximumf x (broadcastInDim S50000x128 ![] bcast_S_S50000x128 (constant S_ .f32 0x00000000#32))

/-- The hidden layer before its relu. -/
def hidPreR (h : Arr F S50000x128 .f32) (W1 : Arr F S128x128 .f32) (b1 : Arr F S128 .f32) : Arr F S50000x128 .f32 :=
  addf (Host.dotGeneral dot_S50000x128_S128x128_S50000x128_1_0_0_1_n_n none h W1)
    (broadcastInDim S50000x128 ![0, 1] bcast_S1x128_S50000x128_0_1 (broadcastInDim S1x128 ![1] bcast_S128_S1x128_1 b1))

/-- The logits of a hidden table. -/
def logitsOfR (a : Arr F S50000x128 .f32) (W2 : Arr F S128x40 .f32) (b2 : Arr F S40 .f32) : Arr F S50000x40 .f32 :=
  addf (Host.dotGeneral dot_S50000x128_S128x40_S50000x40_1_0_0_1_n_n none a W2)
    (broadcastInDim S50000x40 ![0, 1] bcast_S1x40_S50000x40_0_1 (broadcastInDim S1x40 ![1] bcast_S40_S1x40_1 b2))

/-- The rows' maxima, from minus infinity. -/
def maxR (Z : Arr F S50000x40 .f32) : Arr F S50000 .f32 :=
  Host.reduce FloatOps.maximumf Z (constant S_ .f32 0xFF800000#32) reducesTo_S50000x40_S50000_d1 h_S_

/-- The maxima clipped below at minus infinity. -/
def maxcR (M : Arr F S50000 .f32) : Arr F S50000 .f32 :=
  maximumf (broadcastInDim S50000 ![] bcast_S_S50000 (constant S_ .f32 0xFF800000#32)) M

/-- The logits less a per-row value. -/
def shiftR (Z : Arr F S50000x40 .f32) (Mc : Arr F S50000 .f32) : Arr F S50000x40 .f32 :=
  subf Z (broadcastInDim S50000x40 ![0, 1] bcast_S50000x1_S50000x40_0_1 (broadcastInDim S50000x1 ![0] bcast_S50000_S50000x1_0 Mc))

/-- The rows' sums of exponentials. -/
def sumR (Zs : Arr F S50000x40 .f32) : Arr F S50000 .f32 :=
  Host.reduceAdd (Host.exp Zs) (constant S_ .f32 0x00000000#32) reducesTo_S50000x40_S50000_d1 h_S_

/-- The shifted logits less the logarithm of their row's sum. -/
def outOfR (Zs : Arr F S50000x40 .f32) (S : Arr F S50000 .f32) : Arr F S50000x40 .f32 :=
  subf Zs (broadcastInDim S50000x40 ![0, 1] bcast_S50000x1_S50000x40_0_1 (Host.log (broadcastInDim S50000x1 ![0] bcast_S50000_S50000x1_0 S)))

/-- The layer is the relu of the dense step at the clipped degrees. -/
theorem sageR_pieces (src dst : Arr F S600000 .i32) (h : Arr F S50000x128 .f32) (Wl : Arr F S128x128 .f32) (bl : Arr F S128 .f32)
    (Wr : Arr F S128x128 .f32) :
    reluR (denseR (agg src dst h) h (clipR (constant S_ .f32 0x3F800000#32) (deg dst)) Wl bl Wr) = sageR src dst h Wl bl Wr := rfl

/-- The logits are the logits of the relu of the hidden layer. -/
theorem logitsR_pieces (h : Arr F S50000x128 .f32) (W1 : Arr F S128x128 .f32) (b1 : Arr F S128 .f32) (W2 : Arr F S128x40 .f32) (b2 : Arr F S40 .f32) :
    logitsOfR (reluR (hidPreR h W1 b1)) W2 b2 = logitsR h W1 b1 W2 b2 := rfl

/-- The log-softmax is its five pieces. -/
theorem lsmR_pieces (Z : Arr F S50000x40 .f32) :
    outOfR (shiftR Z (maxcR (maxR Z))) (sumR (shiftR Z (maxcR (maxR Z)))) = lsmR Z := rfl

end Cert.Sage

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.KPieces.lean ====
/-
  The host values only the kernel's program computes, and what the calls need of them.

  Beside the neighbour sums the kernel's host code prepares, once, the column of reciprocals 1 / max(1, deg) (one
  entry per node), and lays each bias vector out as a row of one.  Read at an entry: the reciprocal column at (n, 0)
  is 1 / D(n) for the clipped degrees D; a bias row at (0, q) is the bias at q.  The clipped degree at a node is the
  maximum of one and the degree, so at least one, so not zero.
-/
import proofs.«178627_j91216515432812_2_alg».proof.Proof.Spec
import proofs.«178627_j91216515432812_2_alg».proof.Proof.SpecPieces
import proofs.«178627_j91216515432812_2_alg».proof.Proof.Gen.KernelIdeal
import proofs.«178627_j91216515432812_2_alg».proof.Proof.Gen.ReferenceIdeal
import proofs.«178627_j91216515432812_2_alg».proof.Proof.LibBcast
import Idealize.ShloMosaic.Lib.ValueIdx
import Idealize.ShloMosaic.Lib.Pipeline.Value
import Idealize.ShloMosaic.Lib.IdealHost

noncomputable section

namespace Cert.Sage

open Idealize.ShloMosaic Idealize.ShloMosaic.ValueIdx

section Defs
open Cert.KernelIdeal Cert.KernelIdeal.Gen

/-- The column of reciprocals of the clipped degrees `D`. -/
def invColK (D : Arr Ideal S50000 .f32) : Arr Ideal S50000x1 .f32 :=
  broadcastInDim S50000x1 ![0] bcast_S50000_S50000x1_0
    (Host.divf (F := Ideal) (broadcastInDim S50000 ![] bcast_S_S50000 (constant (F := Ideal) S_ .f32 0x3F800000#32)) D)

/-- A bias of 128 entries as a row of one. -/
def biasRowK (b : Arr Ideal S128 .f32) : Arr Ideal S1x128 .f32 := shapeCast S1x128 b shapeCasts_S128_S1x128

/-- A bias of 40 entries as a row of one. -/
def biasRow40K (b : Arr Ideal S40 .f32) : Arr Ideal S1x40 .f32 := shapeCast S1x40 b shapeCasts_S40_S1x40

end Defs

/-- The reciprocal column at (n, 0) is 1 / D(n). -/
theorem invColK_apply (D : Arr Ideal Cert.KernelIdeal.S50000 .f32) (n : Fin 50000) :
    invColK D (ix2 n (0 : Fin 1)) = Ideal.div 1 (D (ix1 n)) := by
  unfold invColK
  refine (Cert.LibBcast.bcastVecCol_apply _ _ n (0 : Fin 1)).trans ?_
  show Ideal.div _ (D (ix1 n)) = _
  refine congrArg (fun u => Ideal.div u (D (ix1 n))) ?_
  exact (Cert.LibBcast.bcastScalar_apply _ _ _).trans ((constant_apply _ _).trans Ideal.ofBits_one_f32)

/-- A vector [C] laid as a row [1, C] reads, at (0, q), the vector at q. -/
theorem rowCast_apply {α : Type} {C : Nat} (v : (⟨1, ![C]⟩ : Shape).Idx → α) (h : (⟨1, ![C]⟩ : Shape).ShapeCasts ⟨2, ![1, C]⟩)
    (q : Fin C) : shapeCast ⟨2, ![1, C]⟩ v h (ix2 (0 : Fin 1) q) = v (ix1 q) :=
  shapeCast_apply v h _ _ (by
    rw [Shape.rowMajor_val_one, Shape.rowMajor_val_two]
    show q.val = 0 * C + q.val
    omega)

theorem biasRowK_apply (b : Arr Ideal Cert.KernelIdeal.S128 .f32) (q : Fin 128) : biasRowK b (ix2 (0 : Fin 1) q) = b (ix1 q) :=
  rowCast_apply _ _ q

theorem biasRow40K_apply (b : Arr Ideal Cert.KernelIdeal.S40 .f32) (q : Fin 40) : biasRow40K b (ix2 (0 : Fin 1) q) = b (ix1 q) :=
  rowCast_apply _ _ q

/-- The clipped degree at a node is the maximum of one and the degree. -/
theorem dcl_apply (d : Arr Ideal Cert.ReferenceIdeal.S600000 .i32) (n : Fin 50000) :
    dcl d (ix1 n) = max 1 (deg d (ix1 n)) := by
  unfold dcl
  refine (maximumf_apply _ _ _).trans (congrArg (fun u => max u (deg d (ix1 n))) ?_)
  exact (Cert.LibBcast.bcastScalar_apply _ _ _).trans ((constant_apply _ _).trans Ideal.ofBits_one_f32)

/-- So it is not zero. -/
theorem dcl_ne_zero (d : Arr Ideal Cert.ReferenceIdeal.S600000 .i32) (n : Fin 50000) : dcl d (ix1 n) ≠ 0 := by
  rw [dcl_apply]
  exact ne_of_gt (lt_of_lt_of_le zero_lt_one (le_max_left 1 _))

/-- The clip of the degrees at the constant one is the specification's clipped degree. -/
theorem clipR_one (d : Arr Ideal Cert.ReferenceIdeal.S600000 .i32) :
    clipR (constant (F := Ideal) Cert.ReferenceIdeal.S_ .f32 0x3F800000#32) (deg d) = dcl d := rfl

end Cert.Sage

end
-- ==== Proof.KHost.lean ====
/-
  The kernel program's five stretches of host operations, each evaluated over ANY contents W of the buffers.

  A stretch's fold at a buffer it computes is the operations' composed term of W's entries, and each such term is a
  function of the specification (the edge list's rows, the degrees, the neighbour sums) or of the kernel's own small
  host values (the reciprocal column, a bias as a row).  A buffer a stretch does not write keeps its contents: one
  lemma per stretch, for any such buffer.
-/
import proofs.«178627_j91216515432812_2_alg».proof.Proof.KPieces
import proofs.«178627_j91216515432812_2_alg».proof.Proof.Gen.KernelIdeal.Launch
import Idealize.ShloMosaic.Lib.StableHlo.Run

set_option maxRecDepth 16384

noncomputable section

namespace Cert.KernelIdeal.Walk

open Cert.KernelIdeal Cert.KernelIdeal.Gen Cert.Sage
open Idealize.ShloMosaic Idealize.ShloMosaic.TcCoe Idealize.SL.Sem Idealize.ShloMosaic.StableHlo

/-! ## The first stretch: the edge list's rows, the degrees, the constant one -/

/-- The sources. -/
theorem H0_v1 (W : Valuation τ sig (Elt Ideal)) :
    after (hostOps0 (F := Ideal)) W (Proc.devRef .tc main_v1) = srcOf (W (Proc.devRef .tc main_arg1)) := by
  simp only [hostOps0]
  after_results_simp <;> rfl

/-- The destinations. -/
theorem H0_v3 (W : Valuation τ sig (Elt Ideal)) :
    after (hostOps0 (F := Ideal)) W (Proc.devRef .tc main_v3) = dstOf (W (Proc.devRef .tc main_arg1)) := by
  simp only [hostOps0]
  after_results_simp <;> rfl

/-- The in-degrees. -/
theorem H0_v7 (W : Valuation τ sig (Elt Ideal)) :
    after (hostOps0 (F := Ideal)) W (Proc.devRef .tc main_v7) = deg (dstOf (W (Proc.devRef .tc main_arg1))) := by
  simp only [hostOps0]
  after_results_simp <;> rfl

/-- The clip's bound, the constant one. -/
theorem H0_cst1 (W : Valuation τ sig (Elt Ideal)) :
    after (hostOps0 (F := Ideal)) W (Proc.devRef .tc main_cst_1) = (constant (F := Ideal) Cert.ReferenceIdeal.S_ .f32 0x3F800000#32 : Arr Ideal Cert.ReferenceIdeal.S_ .f32) := by
  simp only [hostOps0]
  after_results_simp <;> rfl

/-- A buffer `hostOps0` does not write keeps its contents. -/
theorem H0_pass (W : Valuation τ sig (Elt Ideal)) (b : Ref sig .tc)
    (hb : ∀ y ∈ ([main_v0, main_v1, main_v2, main_v3, main_cst, main_v4, main_cst_0, main_v5, main_v6, main_v7, main_cst_1] : List (Ref sig .tc)), b ≠ y) :
    after (hostOps0 (F := Ideal)) W (Proc.devRef .tc b) = W (Proc.devRef .tc b) := by
  refine after_of_forall_not_mem (b := Proc.devRef .tc b) _ _ (List.forall_iff_forall_mem.mp ?_)
  simp only [hostOps0, List.Forall, nullary_writes, unary_writes, binary_writes, ternary_writes, quaternary_writes, reshape_writes,
    binaryIndexed_writes, Finset.mem_singleton]
  repeat' apply And.intro
  all_goals exact devRef_ne_of_ne (hb _ (by simp))

/-! ## The outlined clip -/

/-- The clipped degrees. -/
theorem Hc_v8 (W : Valuation τ sig (Elt Ideal)) :
    after (hostOps0_1 (F := Ideal)) W (Proc.devRef .tc main_v8) = clipR (W (Proc.devRef .tc main_cst_1)) (W (Proc.devRef .tc main_v7)) := by
  simp only [hostOps0_1]
  after_results_simp <;> rfl

/-- A buffer `hostOps0_1` does not write keeps its contents. -/
theorem Hc_pass (W : Valuation τ sig (Elt Ideal)) (b : Ref sig .tc)
    (hb : ∀ y ∈ ([main_call0_v0, main_call0_v1, main_v8] : List (Ref sig .tc)), b ≠ y) :
    after (hostOps0_1 (F := Ideal)) W (Proc.devRef .tc b) = W (Proc.devRef .tc b) := by
  refine after_of_forall_not_mem (b := Proc.devRef .tc b) _ _ (List.forall_iff_forall_mem.mp ?_)
  simp only [hostOps0_1, List.Forall, nullary_writes, unary_writes, binary_writes, ternary_writes, quaternary_writes, reshape_writes,
    binaryIndexed_writes, Finset.mem_singleton]
  repeat' apply And.intro
  all_goals exact devRef_ne_of_ne (hb _ (by simp))

/-! ## The third stretch: the reciprocal column, the first neighbour sums, the first bias row -/

/-- The reciprocal column. -/
theorem H2_v11 (W : Valuation τ sig (Elt Ideal)) :
    after (hostOps0_2 (F := Ideal)) W (Proc.devRef .tc main_v11) = invColK (W (Proc.devRef .tc main_v8)) := by
  simp only [hostOps0_2]
  after_results_simp <;> rfl

/-- The neighbour sums of the input table. -/
theorem H2_v21 (W : Valuation τ sig (Elt Ideal)) :
    after (hostOps0_2 (F := Ideal)) W (Proc.devRef .tc main_v21) = agg (W (Proc.devRef .tc main_v1)) (W (Proc.devRef .tc main_v3)) (W (Proc.devRef .tc main_arg0)) := by
  simp only [hostOps0_2]
  after_results_simp <;> rfl

/-- The first bias as a row. -/
theorem H2_v22 (W : Valuation τ sig (Elt Ideal)) :
    after (hostOps0_2 (F := Ideal)) W (Proc.devRef .tc main_v22) = biasRowK (W (Proc.devRef .tc main_arg3)) := by
  simp only [hostOps0_2]
  after_results_simp <;> rfl

/-- A buffer `hostOps0_2` does not write keeps its contents. -/
theorem H2_pass (W : Valuation τ sig (Elt Ideal)) (b : Ref sig .tc)
    (hb : ∀ y ∈ ([main_cst_2, main_v9, main_v10, main_v11, main_c, main_v12, main_v13, main_c_3, main_v14, main_v15, main_v16, main_v17, main_v18, main_cst_4, main_v19, main_v20, main_v21, main_v22] : List (Ref sig .tc)), b ≠ y) :
    after (hostOps0_2 (F := Ideal)) W (Proc.devRef .tc b) = W (Proc.devRef .tc b) := by
  refine after_of_forall_not_mem (b := Proc.devRef .tc b) _ _ (List.forall_iff_forall_mem.mp ?_)
  simp only [hostOps0_2, List.Forall, nullary_writes, unary_writes, binary_writes, ternary_writes, quaternary_writes, reshape_writes,
    binaryIndexed_writes, Finset.mem_singleton]
  repeat' apply And.intro
  all_goals exact devRef_ne_of_ne (hb _ (by simp))

/-! ## Between the first and the second call -/

/-- The neighbour sums of the first layer's table. -/
theorem H3_v33 (W : Valuation τ sig (Elt Ideal)) :
    after (hostOps1 (F := Ideal)) W (Proc.devRef .tc main_v33) = agg (W (Proc.devRef .tc main_v1)) (W (Proc.devRef .tc main_v3)) (W (Proc.devRef .tc main_v23)) := by
  simp only [hostOps1]
  after_results_simp <;> rfl

/-- The second bias as a row. -/
theorem H3_v34 (W : Valuation τ sig (Elt Ideal)) :
    after (hostOps1 (F := Ideal)) W (Proc.devRef .tc main_v34) = biasRowK (W (Proc.devRef .tc main_arg6)) := by
  simp only [hostOps1]
  after_results_simp <;> rfl

/-- A buffer `hostOps1` does not write keeps its contents. -/
theorem H3_pass (W : Valuation τ sig (Elt Ideal)) (b : Ref sig .tc)
    (hb : ∀ y ∈ ([main_c_5, main_v24, main_v25, main_c_6, main_v26, main_v27, main_v28, main_v29, main_v30, main_cst_7, main_v31, main_v32, main_v33, main_v34] : List (Ref sig .tc)), b ≠ y) :
    after (hostOps1 (F := Ideal)) W (Proc.devRef .tc b) = W (Proc.devRef .tc b) := by
  refine after_of_forall_not_mem (b := Proc.devRef .tc b) _ _ (List.forall_iff_forall_mem.mp ?_)
  simp only [hostOps1, List.Forall, nullary_writes, unary_writes, binary_writes, ternary_writes, quaternary_writes, reshape_writes,
    binaryIndexed_writes, Finset.mem_singleton]
  repeat' apply And.intro
  all_goals exact devRef_ne_of_ne (hb _ (by simp))

/-! ## Between the second and the third call -/

/-- The neighbour sums of the second layer's table. -/
theorem H4_v45 (W : Valuation τ sig (Elt Ideal)) :
    after (hostOps2 (F := Ideal)) W (Proc.devRef .tc main_v45) = agg (W (Proc.devRef .tc main_v1)) (W (Proc.devRef .tc main_v3)) (W (Proc.devRef .tc main_v35)) := by
  simp only [hostOps2]
  after_results_simp <;> rfl

/-- The third bias as a row. -/
theorem H4_v46 (W : Valuation τ sig (Elt Ideal)) :
    after (hostOps2 (F := Ideal)) W (Proc.devRef .tc main_v46) = biasRowK (W (Proc.devRef .tc main_arg9)) := by
  simp only [hostOps2]
  after_results_simp <;> rfl

/-- The hidden layer's bias as a row. -/
theorem H4_v47 (W : Valuation τ sig (Elt Ideal)) :
    after (hostOps2 (F := Ideal)) W (Proc.devRef .tc main_v47) = biasRowK (W (Proc.devRef .tc main_arg12)) := by
  simp only [hostOps2]
  after_results_simp <;> rfl

/-- The classifier's bias as a row. -/
theorem H4_v48 (W : Valuation τ sig (Elt Ideal)) :
    after (hostOps2 (F := Ideal)) W (Proc.devRef .tc main_v48) = biasRow40K (W (Proc.devRef .tc main_arg14)) := by
  simp only [hostOps2]
  after_results_simp <;> rfl

/-- A buffer `hostOps2` does not write keeps its contents. -/
theorem H4_pass (W : Valuation τ sig (Elt Ideal)) (b : Ref sig .tc)
    (hb : ∀ y ∈ ([main_c_8, main_v36, main_v37, main_c_9, main_v38, main_v39, main_v40, main_v41, main_v42, main_cst_10, main_v43, main_v44, main_v45, main_v46, main_v47, main_v48] : List (Ref sig .tc)), b ≠ y) :
    after (hostOps2 (F := Ideal)) W (Proc.devRef .tc b) = W (Proc.devRef .tc b) := by
  refine after_of_forall_not_mem (b := Proc.devRef .tc b) _ _ (List.forall_iff_forall_mem.mp ?_)
  simp only [hostOps2, List.Forall, nullary_writes, unary_writes, binary_writes, ternary_writes, quaternary_writes, reshape_writes,
    binaryIndexed_writes, Finset.mem_singleton]
  repeat' apply And.intro
  all_goals exact devRef_ne_of_ne (hb _ (by simp))

end Cert.KernelIdeal.Walk

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.Combine.lean ====
/-
  One layer's dense step at one entry of one row.

  At row n and column q the layer's value is
      relu( Σ_k (A(n,k) / d(n)) · Wl(k,q) + bl(q) + Σ_k h(n,k) · Wr(k,q) ),
  a function of row n of A and of h, of d(n), and of the weights: `refE`.  The kernel computes, on a block of 5000
  rows, the same expression with the quotient replaced by a product with a precomputed reciprocal column:
  `combE` at the reciprocal.  On the extended reals x · (1 / d) = x / d for every x once d ≠ 0, since both are
  x · d⁻¹ (`mul_div_one`), so the two agree wherever the reciprocal column holds 1 / d(n) with d(n) ≠ 0
  (`combE_recip`).  No finiteness of x is needed.

  Read at an entry: the kernel's two payloads (`k0_row`, `k1_row`: rounding to a shorter float format is the
  identity on exact values, a matrix product into the zero accumulator is the sum over the contracted axis) and the
  host's layer (`layerR_row`).
-/
import proofs.«178627_j91216515432812_2_alg».proof.Proof.Spec
import proofs.«178627_j91216515432812_2_alg».proof.Proof.Gen.KernelIdeal.Skeleton
import proofs.«178627_j91216515432812_2_alg».proof.Proof.LibMatmulZero
import proofs.«178627_j91216515432812_2_alg».proof.Proof.LibHostDot
import proofs.«178627_j91216515432812_2_alg».proof.Proof.LibBcast
import Idealize.ShloMosaic.Lib.ValueIdx
import Idealize.ShloMosaic.Lib.Pipeline.Value

noncomputable section

open scoped BigOperators

namespace Cert.Sage

open Idealize.ShloMosaic Idealize.ShloMosaic.ValueIdx

/-! ## Layout operations of a block, read at an entry -/

/-- A column [R, 1] repeated along C columns reads, at (p, c), the column at (p, 0). -/
theorem bcastTo_col {α : Type} {R C : Nat} (v : (⟨2, ![R, 1]⟩ : Shape).Idx → α)
    (h : (⟨2, ![R, 1]⟩ : Shape).Broadcasts ⟨2, ![R, C]⟩) (p : Fin R) (c : Fin C) :
    broadcastTo ⟨2, ![R, C]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- A row [1, C] repeated along R rows reads, at (p, c), the row at (0, c). -/
theorem bcastTo_row {α : Type} {R C : Nat} (v : (⟨2, ![1, C]⟩ : Shape).Idx → α)
    (h : (⟨2, ![1, C]⟩ : Shape).Broadcasts ⟨2, ![R, C]⟩) (p : Fin R) (c : Fin C) :
    broadcastTo ⟨2, ![R, C]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if C = 1 then 0 else c.val
    split
    · have := c.isLt; omega
    · rfl

/-! ## The step at an entry, as a function of a row -/

/-- The kernel's form: the neighbour row scaled by a factor `iv`, through Wl, plus the bias, plus the node's own
    row through Wr, clipped below at zero. -/
def combE (a hrow : Fin 128 → EReal) (iv : EReal) (Wl Wr : (⟨2, ![128, 128]⟩ : Shape).Idx → EReal) (b : EReal) (q : Fin 128) : EReal :=
  max ((∑ k : Fin 128, (a k * iv) * Wl (ix2 k q)) + b + ∑ k : Fin 128, hrow k * Wr (ix2 k q)) (Ideal.ofBits .f32 0x00000000#32)

/-- The reference's form: the neighbour row divided by `d`. -/
def refE (a hrow : Fin 128 → EReal) (d : EReal) (Wl Wr : (⟨2, ![128, 128]⟩ : Shape).Idx → EReal) (b : EReal) (q : Fin 128) : EReal :=
  max ((∑ k : Fin 128, Ideal.div (a k) d * Wl (ix2 k q)) + b + ∑ k : Fin 128, hrow k * Wr (ix2 k q)) (Ideal.ofBits .f32 0x00000000#32)

/-- On the extended reals a product with the reciprocal of a non-zero `d` is the quotient by `d`. -/
theorem mul_div_one (x d : EReal) (hd : d ≠ 0) : x * Ideal.div 1 d = Ideal.div x d := by
  unfold Ideal.div
  rw [if_neg hd, if_neg hd, one_mul]

/-- Scaling by the reciprocal of a non-zero `d` is the reference's division by `d`. -/
theorem combE_recip (a hrow : Fin 128 → EReal) (d : EReal) (hd : d ≠ 0) (Wl Wr : (⟨2, ![128, 128]⟩ : Shape).Idx → EReal)
    (b : EReal) (q : Fin 128) : combE a hrow (Ideal.div 1 d) Wl Wr b q = refE a hrow d Wl Wr b q := by
  unfold combE refE
  simp only [mul_div_one _ d hd]

end Cert.Sage

end
-- ==== Proof.CombineRows.lean ====
/-
  The dense step read at an entry: the two kernels' payloads and the host's layer.

  A payload is a tree of pointwise operations around two matrix products of a [5000, 128] block with a [128, 128]
  weight.  At entry (p, q) a product into the zero accumulator is the sum over k of left(p, k) · right(k, q); the
  reciprocal column, repeated along the row, contributes its entry (p, 0); the bias row, repeated down the block, its
  entry (0, q); rounding to a shorter format and a cast to the same shape change nothing.  So the payload at (p, q)
  is `combE` of row p of the two [5000, 128] blocks.  The host's layer at (n, q) is `refE` of row n of the two
  [50000, 128] tables, the divisor d(n) reaching the entry through a column and then a row-wise repetition.
-/
import proofs.«178627_j91216515432812_2_alg».proof.Proof.Combine
import proofs.«178627_j91216515432812_2_alg».proof.Proof.Gen.ReferenceIdeal

noncomputable section

open scoped BigOperators

namespace Cert.Sage

open Idealize.ShloMosaic Idealize.ShloMosaic.ValueIdx

/-! ## The product records: which operand entries a result entry reads -/

/-- The kernels' [5000, 128] × [128, 128] product. -/
abbrev DK : DotDims Cert.KernelIdeal.S5000x128 Cert.KernelIdeal.S128x128 Cert.KernelIdeal.S5000x128 :=
  Cert.KernelIdeal.dot_S5000x128_S128x128_S5000x128_1_0_0_1_n_n

theorem DK_l0 (i : (⟨2, ![5000, 128]⟩ : Shape).Idx) (c : DK.contr.Idx) : (DK.lhsIdx i c 0).val = (i 0).val := by
  unfold DotDims.lhsIdx
  rw [dif_neg (show ¬(0 : Fin _) ∈ DK.lhsBatch by decide), dif_pos (show (0 : Fin _) ∈ DK.lhsNonContracting by decide)]
  rfl

theorem DK_r1 (i : (⟨2, ![5000, 128]⟩ : Shape).Idx) (c : DK.contr.Idx) : (DK.rhsIdx i c 1).val = (i 1).val := by
  unfold DotDims.rhsIdx
  rw [dif_neg (show ¬(1 : Fin _) ∈ DK.rhsBatch by decide), dif_pos (show (1 : Fin _) ∈ DK.rhsNonContracting by decide)]
  rfl

/-- The host's [50000, 128] × [128, 128] product. -/
abbrev DR : DotDims Cert.ReferenceIdeal.S50000x128 Cert.ReferenceIdeal.S128x128 Cert.ReferenceIdeal.S50000x128 :=
  Cert.ReferenceIdeal.dot_S50000x128_S128x128_S50000x128_1_0_0_1_n_n

theorem DR_l0 (i : (⟨2, ![50000, 128]⟩ : Shape).Idx) (c : DR.contr.Idx) : (DR.lhsIdx i c 0).val = (i 0).val := by
  unfold DotDims.lhsIdx
  rw [dif_neg (show ¬(0 : Fin _) ∈ DR.lhsBatch by decide), dif_pos (show (0 : Fin _) ∈ DR.lhsNonContracting by decide)]
  rfl

theorem DR_r1 (i : (⟨2, ![50000, 128]⟩ : Shape).Idx) (c : DR.contr.Idx) : (DR.rhsIdx i c 1).val = (i 1).val := by
  unfold DotDims.rhsIdx
  rw [dif_neg (show ¬(1 : Fin _) ∈ DR.rhsBatch by decide), dif_pos (show (1 : Fin _) ∈ DR.rhsNonContracting by decide)]
  rfl

/-! ## The kernels' payloads at an entry -/

/-- The first call's stored value at (p, q). -/
theorem k0_row (v0 v7 : Vec Ideal Cert.KernelIdeal.S5000x128 .f32) (v2 : Vec Ideal Cert.KernelIdeal.S5000x1 .f32)
    (v9 v11 : Vec Ideal Cert.KernelIdeal.S128x128 .f32) (v14 : Vec Ideal Cert.KernelIdeal.S1x128 .f32) (p : Fin 5000) (q : Fin 128) :
    Cert.KernelIdeal.Gen.k0_pay1 v0 v2 v7 v9 v11 v14 (ix2 p q)
      = combE (fun k => v0 (ix2 p k)) (fun k => v7 (ix2 p k)) (v2 (ix2 p (0 : Fin 1))) v9 v11 (v14 (ix2 (0 : Fin 1) q)) q := by
  unfold Cert.KernelIdeal.Gen.k0_pay1 combE
  refine congrArg₂ max (congrArg₂ (· + ·) (congrArg₂ (· + ·) ?_ ?_) ?_) rfl
  · refine (Cert.LibMatmulZero.matmul_zero_ix2 DK rfl rfl rfl rfl DK_l0 DK_r1 none _ _ p q).trans (Finset.sum_congr rfl fun k _ => ?_)
    exact congrArg₂ (· * ·) (congrArg₂ (· * ·) (congrFun (shapeCast_self v0 _) _)
      ((bcastTo_col _ _ p k).trans (congrFun (shapeCast_self v2 _) _))) rfl
  · exact (bcastTo_row _ _ p q).trans (congrFun (shapeCast_self v14 _) _)
  · exact (Cert.LibMatmulZero.matmul_zero_ix2 DK rfl rfl rfl rfl DK_l0 DK_r1 none _ _ p q).trans (Finset.sum_congr rfl fun k _ => rfl)

/-- The second call's stored value at (p, q): the same tree, the node block cast to its own shape first. -/
theorem k1_row (v0 v7 : Vec Ideal Cert.KernelIdeal.S5000x128 .f32) (v2 : Vec Ideal Cert.KernelIdeal.S5000x1 .f32)
    (v10 v12 : Vec Ideal Cert.KernelIdeal.S128x128 .f32) (v15 : Vec Ideal Cert.KernelIdeal.S1x128 .f32) (p : Fin 5000) (q : Fin 128) :
    Cert.KernelIdeal.Gen.k1_pay1 v0 v2 v7 v10 v12 v15 (ix2 p q)
      = combE (fun k => v0 (ix2 p k)) (fun k => v7 (ix2 p k)) (v2 (ix2 p (0 : Fin 1))) v10 v12 (v15 (ix2 (0 : Fin 1) q)) q := by
  unfold Cert.KernelIdeal.Gen.k1_pay1 combE
  refine congrArg₂ max (congrArg₂ (· + ·) (congrArg₂ (· + ·) ?_ ?_) ?_) rfl
  · refine (Cert.LibMatmulZero.matmul_zero_ix2 DK rfl rfl rfl rfl DK_l0 DK_r1 none _ _ p q).trans (Finset.sum_congr rfl fun k _ => ?_)
    exact congrArg₂ (· * ·) (congrArg₂ (· * ·) (congrFun (shapeCast_self v0 _) _)
      ((bcastTo_col _ _ p k).trans (congrFun (shapeCast_self v2 _) _))) rfl
  · exact (bcastTo_row _ _ p q).trans (congrFun (shapeCast_self v15 _) _)
  · exact (Cert.LibMatmulZero.matmul_zero_ix2 DK rfl rfl rfl rfl DK_l0 DK_r1 none _ _ p q).trans
      (Finset.sum_congr rfl fun k _ => congrArg₂ (· * ·) (congrFun (shapeCast_self v7 _) _) rfl)

/-! ## The host's layer at an entry -/

/-- The layer of the specification at (n, q). -/
theorem layerR_row (A h : Arr Ideal Cert.ReferenceIdeal.S50000x128 .f32) (D : Arr Ideal Cert.ReferenceIdeal.S50000 .f32)
    (Wl : Arr Ideal Cert.ReferenceIdeal.S128x128 .f32) (bl : Arr Ideal Cert.ReferenceIdeal.S128 .f32)
    (Wr : Arr Ideal Cert.ReferenceIdeal.S128x128 .f32) (n : Fin 50000) (q : Fin 128) :
    layerR A h D Wl bl Wr (ix2 n q)
      = refE (fun k => A (ix2 n k)) (fun k => h (ix2 n k)) (D (ix1 n)) Wl Wr (bl (ix1 q)) q := by
  unfold layerR refE
  refine congrArg₂ max (congrArg₂ (· + ·) (congrArg₂ (· + ·) ?_ ?_) ?_) ?_
  · refine (Cert.LibHostDot.dotGeneral_ix2 DR rfl rfl rfl rfl DR_l0 DR_r1 none _ _ n q).trans (Finset.sum_congr rfl fun k _ => ?_)
    exact congrArg₂ (· * ·) (congrArg (Ideal.div (A (ix2 n k)))
      ((Cert.LibBcast.bcastCol_apply _ _ n k).trans (Cert.LibBcast.bcastVecCol_apply _ _ n (0 : Fin 1)))) rfl
  · exact (Cert.LibBcast.bcastRow_apply _ _ n q).trans (Cert.LibBcast.bcastVecRow_apply _ _ (0 : Fin 1) q)
  · exact (Cert.LibHostDot.dotGeneral_ix2 DR rfl rfl rfl rfl DR_l0 DR_r1 none _ _ n q).trans (Finset.sum_congr rfl fun k _ => rfl)
  · exact Cert.LibBcast.bcastScalar_apply _ _ _

end Cert.Sage

end
-- ==== Proof.Region0.lean ====
/-
  What the first pallas_call leaves in its output array.

  The call's grid has ten points; point t handles rows 5000·t … 5000·t + 4999 of the [50000, 128] tables: the windows
  of the neighbour sums, of the node table, of the reciprocal column and of the output all move with t along the
  rows, and the two weights and the bias row are one block each.  So row p of a block at point t is row 5000·t + p of
  its table (`blkA`, `blkH`, `blkI`), and the weights' and the bias's blocks are the whole arrays (`blkWl`,
  `blkWr`, `blkB`).

  If the reciprocal column holds 1 / D(n) at every row n, with D(n) ≠ 0, and the bias row holds bl, then what point t
  writes back is block t of the specification's layer of the tables (`flushed0`): entry by entry, the payload is the
  scaled form of the dense step, the layer the divided form, and the two agree.  The ten blocks cover the output
  array (`cover0`: row r is in the block of point r / 5000), so the array ends holding that layer (`region0`).
-/
import proofs.«178627_j91216515432812_2_alg».proof.Proof.CombineRows
import proofs.«178627_j91216515432812_2_alg».proof.Proof.Gen.KernelIdeal.Frame
import Idealize.ShloMosaic.Lib.Pipeline.Value

set_option maxRecDepth 16384

noncomputable section

namespace Cert.KernelIdeal.Val0

open Cert.KernelIdeal Cert.KernelIdeal.Gen Cert.Sage
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: four windows move with the point along the rows, three stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A block's entry is its table's -/

theorem blkA (c : Dev nD) (t : Fin cfg0.N) (p : Fin 5000) (k : Fin 128) (n : Fin 50000) (hn : n.val = t.val * 5000 + p.val) :
    iblk0 V c 0 t (ix2 p k) = V c main_v21 (ix2 n k) := by
  obtain ⟨e0, e1, -⟩ := idx0 t
  show V c main_v21 (((cfg0.win 0).blk t).view.emb (ix2 p k)) = V c main_v21 (ix2 n k)
  refine congrArg (V c main_v21) (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

theorem blkH (c : Dev nD) (t : Fin cfg0.N) (p : Fin 5000) (k : Fin 128) (n : Fin 50000) (hn : n.val = t.val * 5000 + p.val) :
    iblk0 V c 1 t (ix2 p k) = V c main_arg0 (ix2 n k) := by
  obtain ⟨-, -, e0, e1, -⟩ := idx0 t
  show V c main_arg0 (((cfg0.win 1).blk t).view.emb (ix2 p k)) = V c main_arg0 (ix2 n k)
  refine congrArg (V c main_arg0) (funext fun a => Fin.ext ?_)
  match a with
  | ⟨0, _⟩ => show win0_1.index t (0 : Fin 2) * 5000 + 1 * p.val = n.val; omega
  | ⟨1, _⟩ => show win0_1.index t (1 : Fin 2) * 128 + 1 * k.val = k.val; omega

theorem blkI (c : Dev nD) (t : Fin cfg0.N) (p : Fin 5000) (n : Fin 50000) (hn : n.val = t.val * 5000 + p.val) :
    iblk0 V c 2 t (ix2 p (0 : Fin 1)) = V c main_v11 (ix2 n (0 : Fin 1)) := by
  obtain ⟨-, -, -, -, e0, e1, -⟩ := idx0 t
  show V c main_v11 (((cfg0.win 2).blk t).view.emb (ix2 p (0 : Fin 1))) = V c main_v11 (ix2 n (0 : Fin 1))
  refine congrArg (V c main_v11) (funext fun a => Fin.ext ?_)
  match a with
  | ⟨0, _⟩ => show win0_2.index t (0 : Fin 2) * 5000 + 1 * p.val = n.val; omega
  | ⟨1, _⟩ => show win0_2.index t (1 : Fin 2) * 1 + 1 * 0 = 0; omega

theorem blkWl (c : Dev nD) (t : Fin cfg0.N) : iblk0 V c 3 t = V c main_arg2 := by
  obtain ⟨-, -, -, -, -, -, e0, e1, -⟩ := idx0 t
  funext y
  show V c main_arg2 (((cfg0.win 3).blk t).view.emb y) = V c main_arg2 y
  refine congrArg (V c main_arg2) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blkB (c : Dev nD) (t : Fin cfg0.N) (q : Fin 128) : iblk0 V c 4 t (ix2 (0 : Fin 1) q) = V c main_v22 (ix2 (0 : Fin 1) q) := by
  obtain ⟨-, -, -, -, -, -, -, -, e0, e1, -⟩ := idx0 t
  show V c main_v22 (((cfg0.win 4).blk t).view.emb (ix2 (0 : Fin 1) q)) = V c main_v22 (ix2 (0 : Fin 1) q)
  refine congrArg (V c main_v22) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

theorem blkWr (c : Dev nD) (t : Fin cfg0.N) : iblk0 V c 5 t = V c main_arg4 := by
  obtain ⟨-, -, -, -, -, -, -, -, -, -, e0, e1, -⟩ := idx0 t
  funext y
  show V c main_arg4 (((cfg0.win 5).blk t).view.emb y) = V c main_arg4 y
  refine congrArg (V c main_arg4) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-! ## What a point writes back -/

/-- Point t writes back block t of the layer of the tables. -/
theorem flushed0 (c : Dev nD) (D : Arr Ideal Cert.ReferenceIdeal.S50000 .f32) (bl : Arr Ideal Cert.ReferenceIdeal.S128 .f32)
    (hD : ∀ n : Fin 50000, D (ix1 n) ≠ 0)
    (hinv : ∀ n : Fin 50000, V c main_v11 (ix2 n (0 : Fin 1)) = Ideal.div 1 (D (ix1 n)))
    (hbl : ∀ q : Fin 128, V c main_v22 (ix2 (0 : Fin 1) q) = bl (ix1 q)) (t : Fin cfg0.N) :
    (dat0 V c).flushed 6 t = ((cfg0.win 6).blk t).view.read (Elt Ideal)
      (layerR (V c main_v21) (V c main_arg0) D (V c main_arg2) bl (V c main_arg4)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  have hN : cfg0.N = 10 := N_0
  have ht : t.val < 10 := hN ▸ t.isLt
  have hp : p.val < 5000 := p.isLt
  obtain ⟨n, hn⟩ : ∃ n : Fin 50000, n.val = t.val * 5000 + p.val := ⟨⟨t.val * 5000 + p.val, by omega⟩, rfl⟩
  refine (k0_row _ _ _ _ _ _ p q).trans ?_
  have hR : ((cfg0.win 6).blk t).view.read (Elt Ideal)
      (layerR (V c main_v21) (V c main_arg0) D (V c main_arg2) bl (V c main_arg4)) (ix2 p q)
      = layerR (V c main_v21) (V c main_arg0) D (V c main_arg2) bl (V c main_arg4) (ix2 n q) := by
    obtain ⟨-, -, -, -, -, -, -, -, -, -, -, -, e0, e1⟩ := idx0 t
    show layerR (V c main_v21) (V c main_arg0) D (V c main_arg2) bl (V c main_arg4) (((cfg0.win 6).blk t).view.emb (ix2 p q)) = _
    refine congrArg _ (funext fun a => Fin.ext ?_)
    match a with
    | ⟨0, _⟩ => show win0_6.index t (0 : Fin 2) * 5000 + 1 * p.val = n.val; omega
    | ⟨1, _⟩ => show win0_6.index t (1 : Fin 2) * 128 + 1 * q.val = q.val; omega
  rw [hR, layerR_row, ← combE_recip _ _ (D (ix1 n)) (hD n)]
  have ha : (fun k : Fin 128 => iblk0 V c 0 t (ix2 p k)) = fun k => V c main_v21 (ix2 n k) := funext fun k => blkA V c t p k n hn
  have hh : (fun k : Fin 128 => iblk0 V c 1 t (ix2 p k)) = fun k => V c main_arg0 (ix2 n k) := funext fun k => blkH V c t p k n hn
  rw [ha, hh, blkI V c t p n hn, hinv n, blkWl V c t, blkWr V c t, blkB V c t q, hbl q]

/-! ## The blocks cover the array -/

theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by omega⟩, rfl⟩
  refine ⟨t, flush0_6 t, ?_⟩
  rw [mem_blk0]
  obtain ⟨-, -, -, -, -, -, -, -, -, -, -, -, e0, e1⟩ := idx0 t
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The array after the call -/

/-- The call's output array ends holding the layer of the tables the call found. -/
theorem region0 (c : Dev nD) (D : Arr Ideal Cert.ReferenceIdeal.S50000 .f32) (bl : Arr Ideal Cert.ReferenceIdeal.S128 .f32)
    (hD : ∀ n : Fin 50000, D (ix1 n) ≠ 0)
    (hinv : ∀ n : Fin 50000, V c main_v11 (ix2 n (0 : Fin 1)) = Ideal.div 1 (D (ix1 n)))
    (hbl : ∀ q : Fin 128, V c main_v22 (ix2 (0 : Fin 1) q) = bl (ix1 q)) :
    (dat0 V c).arrAt 6 cfg0.N = layerR (V c main_v21) (V c main_arg0) D (V c main_arg2) bl (V c main_arg4) :=
  (dat0 V c).arrAt_eq_of_cover 6 _ (fun t _ => flushed0 V c D bl hD hinv hbl t) cover0

end Cert.KernelIdeal.Val0

end
-- ==== Proof.Region1.lean ====
/-
  What the second pallas_call leaves in its output array.

  The call's grid has ten points; point t handles rows 5000·t … 5000·t + 4999 of the [50000, 128] tables: the windows
  of the neighbour sums, of the node table, of the reciprocal column and of the output all move with t along the
  rows, and the two weights and the bias row are one block each.  So row p of a block at point t is row 5000·t + p of
  its table (`blkA`, `blkH`, `blkI`), and the weights' and the bias's blocks are the whole arrays (`blkWl`,
  `blkWr`, `blkB`).

  If the reciprocal column holds 1 / D(n) at every row n, with D(n) ≠ 0, and the bias row holds bl, then what point t
  writes back is block t of the specification's layer of the tables (`flushed1`): entry by entry, the payload is the
  scaled form of the dense step, the layer the divided form, and the two agree.  The ten blocks cover the output
  array (`cover1`: row r is in the block of point r / 5000), so the array ends holding that layer (`region1`).
-/
import proofs.«178627_j91216515432812_2_alg».proof.Proof.CombineRows
import proofs.«178627_j91216515432812_2_alg».proof.Proof.Gen.KernelIdeal.Frame
import Idealize.ShloMosaic.Lib.Pipeline.Value

set_option maxRecDepth 16384

noncomputable section

namespace Cert.KernelIdeal.Val1

open Cert.KernelIdeal Cert.KernelIdeal.Gen Cert.Sage
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: four windows move with the point along the rows, three stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## A block's entry is its table's -/

theorem blkA (c : Dev nD) (t : Fin cfg1.N) (p : Fin 5000) (k : Fin 128) (n : Fin 50000) (hn : n.val = t.val * 5000 + p.val) :
    iblk1 V c 0 t (ix2 p k) = V c main_v33 (ix2 n k) := by
  obtain ⟨e0, e1, -⟩ := idx1 t
  show V c main_v33 (((cfg1.win 0).blk t).view.emb (ix2 p k)) = V c main_v33 (ix2 n k)
  refine congrArg (V c main_v33) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

theorem blkH (c : Dev nD) (t : Fin cfg1.N) (p : Fin 5000) (k : Fin 128) (n : Fin 50000) (hn : n.val = t.val * 5000 + p.val) :
    iblk1 V c 1 t (ix2 p k) = V c main_v23 (ix2 n k) := by
  obtain ⟨-, -, e0, e1, -⟩ := idx1 t
  show V c main_v23 (((cfg1.win 1).blk t).view.emb (ix2 p k)) = V c main_v23 (ix2 n k)
  refine congrArg (V c main_v23) (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

theorem blkI (c : Dev nD) (t : Fin cfg1.N) (p : Fin 5000) (n : Fin 50000) (hn : n.val = t.val * 5000 + p.val) :
    iblk1 V c 2 t (ix2 p (0 : Fin 1)) = V c main_v11 (ix2 n (0 : Fin 1)) := by
  obtain ⟨-, -, -, -, e0, e1, -⟩ := idx1 t
  show V c main_v11 (((cfg1.win 2).blk t).view.emb (ix2 p (0 : Fin 1))) = V c main_v11 (ix2 n (0 : Fin 1))
  refine congrArg (V c main_v11) (funext fun a => Fin.ext ?_)
  match a with
  | ⟨0, _⟩ => show win1_2.index t (0 : Fin 2) * 5000 + 1 * p.val = n.val; omega
  | ⟨1, _⟩ => show win1_2.index t (1 : Fin 2) * 1 + 1 * 0 = 0; omega

theorem blkWl (c : Dev nD) (t : Fin cfg1.N) : iblk1 V c 3 t = V c main_arg5 := by
  obtain ⟨-, -, -, -, -, -, e0, e1, -⟩ := idx1 t
  funext y
  show V c main_arg5 (((cfg1.win 3).blk t).view.emb y) = V c main_arg5 y
  refine congrArg (V c main_arg5) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blkB (c : Dev nD) (t : Fin cfg1.N) (q : Fin 128) : iblk1 V c 4 t (ix2 (0 : Fin 1) q) = V c main_v34 (ix2 (0 : Fin 1) q) := by
  obtain ⟨-, -, -, -, -, -, -, -, e0, e1, -⟩ := idx1 t
  show V c main_v34 (((cfg1.win 4).blk t).view.emb (ix2 (0 : Fin 1) q)) = V c main_v34 (ix2 (0 : Fin 1) q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem blkWr (c : Dev nD) (t : Fin cfg1.N) : iblk1 V c 5 t = V c main_arg7 := by
  obtain ⟨-, -, -, -, -, -, -, -, -, -, e0, e1, -⟩ := idx1 t
  funext y
  show V c main_arg7 (((cfg1.win 5).blk t).view.emb y) = V c main_arg7 y
  refine congrArg (V c main_arg7) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-! ## What a point writes back -/

/-- Point t writes back block t of the layer of the tables. -/
theorem flushed1 (c : Dev nD) (D : Arr Ideal Cert.ReferenceIdeal.S50000 .f32) (bl : Arr Ideal Cert.ReferenceIdeal.S128 .f32)
    (hD : ∀ n : Fin 50000, D (ix1 n) ≠ 0)
    (hinv : ∀ n : Fin 50000, V c main_v11 (ix2 n (0 : Fin 1)) = Ideal.div 1 (D (ix1 n)))
    (hbl : ∀ q : Fin 128, V c main_v34 (ix2 (0 : Fin 1) q) = bl (ix1 q)) (t : Fin cfg1.N) :
    (dat1 V c).flushed 6 t = ((cfg1.win 6).blk t).view.read (Elt Ideal)
      (layerR (V c main_v33) (V c main_v23) D (V c main_arg5) bl (V c main_arg7)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  have hN : cfg1.N = 10 := N_1
  have ht : t.val < 10 := hN ▸ t.isLt
  have hp : p.val < 5000 := p.isLt
  obtain ⟨n, hn⟩ : ∃ n : Fin 50000, n.val = t.val * 5000 + p.val := ⟨⟨t.val * 5000 + p.val, by omega⟩, rfl⟩
  refine (k1_row _ _ _ _ _ _ p q).trans ?_
  have hR : ((cfg1.win 6).blk t).view.read (Elt Ideal)
      (layerR (V c main_v33) (V c main_v23) D (V c main_arg5) bl (V c main_arg7)) (ix2 p q)
      = layerR (V c main_v33) (V c main_v23) D (V c main_arg5) bl (V c main_arg7) (ix2 n q) := by
    obtain ⟨-, -, -, -, -, -, -, -, -, -, -, -, e0, e1⟩ := idx1 t
    show layerR (V c main_v33) (V c main_v23) D (V c main_arg5) bl (V c main_arg7) (((cfg1.win 6).blk t).view.emb (ix2 p q)) = _
    refine congrArg _ (funext fun a => Fin.ext ?_)
    match a with
    | ⟨0, _⟩ => show win1_6.index t (0 : Fin 2) * 5000 + 1 * p.val = n.val; omega
    | ⟨1, _⟩ => show win1_6.index t (1 : Fin 2) * 128 + 1 * q.val = q.val; omega
  rw [hR, layerR_row, ← combE_recip _ _ (D (ix1 n)) (hD n)]
  have ha : (fun k : Fin 128 => iblk1 V c 0 t (ix2 p k)) = fun k => V c main_v33 (ix2 n k) := funext fun k => blkA V c t p k n hn
  have hh : (fun k : Fin 128 => iblk1 V c 1 t (ix2 p k)) = fun k => V c main_v23 (ix2 n k) := funext fun k => blkH V c t p k n hn
  rw [ha, hh, blkI V c t p n hn, hinv n, blkWl V c t, blkWr V c t, blkB V c t q, hbl q]

/-! ## The blocks cover the array -/

theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, htv⟩ : ∃ t : Fin cfg1.N, t.val = (i 0).val / 5000 := ⟨⟨(i 0).val / 5000, by omega⟩, rfl⟩
  refine ⟨t, flush1_6 t, ?_⟩
  rw [mem_blk1]
  obtain ⟨-, -, -, -, -, -, -, -, -, -, -, -, e0, e1⟩ := idx1 t
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## The array after the call -/

/-- The call's output array ends holding the layer of the tables the call found. -/
theorem region1 (c : Dev nD) (D : Arr Ideal Cert.ReferenceIdeal.S50000 .f32) (bl : Arr Ideal Cert.ReferenceIdeal.S128 .f32)
    (hD : ∀ n : Fin 50000, D (ix1 n) ≠ 0)
    (hinv : ∀ n : Fin 50000, V c main_v11 (ix2 n (0 : Fin 1)) = Ideal.div 1 (D (ix1 n)))
    (hbl : ∀ q : Fin 128, V c main_v34 (ix2 (0 : Fin 1) q) = bl (ix1 q)) :
    (dat1 V c).arrAt 6 cfg1.N = layerR (V c main_v33) (V c main_v23) D (V c main_arg5) bl (V c main_arg7) :=
  (dat1 V c).arrAt_eq_of_cover 6 _ (fun t _ => flushed1 V c D bl hD hinv hbl t) cover1

end Cert.KernelIdeal.Val1

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.HeadDefs.lean ====
/-
  The classifier head at one entry of one row.

  After the third layer the kernel goes on, in the same body, to the classifier: from a row h of the layer's output,
      a(k)  = relu( Σ_l h(l) · W1(l,k) + b1(k) )                      (`hidE`)
      z(j)  = Σ_k a(k) · W2(k,j) + b2(j)                               (`logitE`)
      out(j) = (z(j) - M) - log Σ_a exp(z(a) - M),   M = max(-∞, max_a z(a))   (`rowMaxE`, `lsmE`).
  Each of these reads one row only.  The kernel's three payloads and the host's operations are read here at an
  entry as these functions of a row: a matrix product into the zero accumulator as the sum over the contracted axis,
  a lane reduction as the sum / the fold of max over the row, a repeated column or row as its one entry, rounding to
  a shorter format as the identity.  The host's row sum starts from its initial value, the zero word, which is 0.
-/
import proofs.«178627_j91216515432812_2_alg».proof.Proof.CombineRows
import proofs.«178627_j91216515432812_2_alg».proof.Proof.LibRowOps
import proofs.«178627_j91216515432812_2_alg».proof.Proof.LibGraphOps

noncomputable section

open scoped BigOperators

namespace Cert.Sage

open Idealize.ShloMosaic Idealize.ShloMosaic.ValueIdx

/-! ## The head as functions of a row -/

/-- A hidden unit: relu of the row through W1 plus the bias. -/
def hidE (hrow : Fin 128 → EReal) (W1 : (⟨2, ![128, 128]⟩ : Shape).Idx → EReal) (b : EReal) (k : Fin 128) : EReal :=
  max ((∑ l : Fin 128, hrow l * W1 (ix2 l k)) + b) (Ideal.ofBits .f32 0x00000000#32)

/-- A logit: the hidden row through W2 plus the bias. -/
def logitE (arow : Fin 128 → EReal) (W2 : (⟨2, ![128, 40]⟩ : Shape).Idx → EReal) (b : EReal) (j : Fin 40) : EReal :=
  (∑ k : Fin 128, arow k * W2 (ix2 k j)) + b

/-- A row's maximum, from minus infinity. -/
def rowMaxE (z : Fin 40 → EReal) : EReal :=
  max (Ideal.ofBits .f32 0xFF800000#32) ((Finset.univ : Finset (Fin 40)).fold max (Ideal.ofBits .f32 0xFF800000#32) z)

/-- The log-softmax of a row at one class. -/
def lsmE (z : Fin 40 → EReal) (j : Fin 40) : EReal :=
  (z j - rowMaxE z) - Ideal.log (∑ a : Fin 40, Ideal.exp (z a - rowMaxE z))

/-- A vector [R] laid as a column [R, 1] reads, at (p, 0), the vector at p. -/
theorem shapeCast_col {α : Type} {R : Nat} (v : (⟨1, ![R]⟩ : Shape).Idx → α) (h : (⟨1, ![R]⟩ : Shape).ShapeCasts ⟨2, ![R, 1]⟩)
    (p : Fin R) : shapeCast ⟨2, ![R, 1]⟩ v h (ix2 p (0 : Fin 1)) = v (ix1 p) :=
  shapeCast_apply v h _ _ (by
    rw [Shape.rowMajor_val_one, Shape.rowMajor_val_two]
    show p.val = p.val * 1 + 0
    omega)

/-! ## Exponential and logarithm read at an entry -/

theorem hostExp_apply {s : Shape} (x : FVec Ideal s .f32) (i : s.Idx) : Host.exp x i = Ideal.exp (x i) := rfl

theorem hostLog_apply {s : Shape} (x : FVec Ideal s .f32) (i : s.Idx) : Host.log x i = Ideal.log (x i) := rfl

theorem vexp_apply {s : Shape} (x : FVec Ideal s .f32) (i : s.Idx) : exp x i = Ideal.exp (x i) := rfl

theorem vlog_apply {s : Shape} (x : FVec Ideal s .f32) (i : s.Idx) : log x i = Ideal.log (x i) := rfl

/-! ## The product records with the [128, 40] weight -/

abbrev DK40 : DotDims Cert.KernelIdeal.S5000x128 Cert.KernelIdeal.S128x40 Cert.KernelIdeal.S5000x40 :=
  Cert.KernelIdeal.dot_S5000x128_S128x40_S5000x40_1_0_0_1_n_n

theorem DK40_l0 (i : (⟨2, ![5000, 40]⟩ : Shape).Idx) (c : DK40.contr.Idx) : (DK40.lhsIdx i c 0).val = (i 0).val := by
  unfold DotDims.lhsIdx
  rw [dif_neg (show ¬(0 : Fin _) ∈ DK40.lhsBatch by decide), dif_pos (show (0 : Fin _) ∈ DK40.lhsNonContracting by decide)]
  rfl

theorem DK40_r1 (i : (⟨2, ![5000, 40]⟩ : Shape).Idx) (c : DK40.contr.Idx) : (DK40.rhsIdx i c 1).val = (i 1).val := by
  unfold DotDims.rhsIdx
  rw [dif_neg (show ¬(1 : Fin _) ∈ DK40.rhsBatch by decide), dif_pos (show (1 : Fin _) ∈ DK40.rhsNonContracting by decide)]
  rfl

abbrev DR40 : DotDims Cert.ReferenceIdeal.S50000x128 Cert.ReferenceIdeal.S128x40 Cert.ReferenceIdeal.S50000x40 :=
  Cert.ReferenceIdeal.dot_S50000x128_S128x40_S50000x40_1_0_0_1_n_n

theorem DR40_l0 (i : (⟨2, ![50000, 40]⟩ : Shape).Idx) (c : DR40.contr.Idx) : (DR40.lhsIdx i c 0).val = (i 0).val := by
  unfold DotDims.lhsIdx
  rw [dif_neg (show ¬(0 : Fin _) ∈ DR40.lhsBatch by decide), dif_pos (show (0 : Fin _) ∈ DR40.lhsNonContracting by decide)]
  rfl

theorem DR40_r1 (i : (⟨2, ![50000, 40]⟩ : Shape).Idx) (c : DR40.contr.Idx) : (DR40.rhsIdx i c 1).val = (i 1).val := by
  unfold DotDims.rhsIdx
  rw [dif_neg (show ¬(1 : Fin _) ∈ DR40.rhsBatch by decide), dif_pos (show (1 : Fin _) ∈ DR40.rhsNonContracting by decide)]
  rfl

end Cert.Sage

end
-- ==== Proof.HeadLsm.lean ====
/-
  The third call's log-softmax tree on a [5000, 40] block of logits, and the call's stored value, read at an entry:
  the lane maximum as the fold of max over the row, the lane sum as the sum over the row, the repeated columns as
  their one entry.  At (p, j) the stored value is the row function `lsmE` of the logits of row p.
-/
import proofs.«178627_j91216515432812_2_alg».proof.Proof.HeadDefs

noncomputable section

open scoped BigOperators

namespace Cert.Sage

open Idealize.ShloMosaic Idealize.ShloMosaic.ValueIdx

section Kernel

open Cert.KernelIdeal Cert.KernelIdeal.Facts₀ Cert.KernelIdeal.Facts

/-- The log-softmax of a [5000, 40] block of logits, operation by operation as the body computes it. -/
def lsmB (Z : FVec Ideal S5000x40 .f32) : FVec Ideal S5000x40 .f32 :=
  subf (subf Z (broadcastTo S5000x40 (shapeCast S5000x1 (maximumf (broadcast S5000 (Scalar.ofBits .f32 0xFF800000#32))
      (multiReduction .maximumf [1] S5000 Z 0xFF800000#32 reduces_S5000x40_S5000 (.inl rfl) rfl)) shapeCasts_S5000_S5000x1) broadcasts_S5000x1_S5000x40))
    (broadcastTo S5000x40 (log (shapeCast S5000x1 (multiReduction .add [1] S5000 (exp (subf Z (broadcastTo S5000x40 (shapeCast S5000x1
      (maximumf (broadcast S5000 (Scalar.ofBits .f32 0xFF800000#32))
        (multiReduction .maximumf [1] S5000 Z 0xFF800000#32 reduces_S5000x40_S5000 (.inl rfl) rfl)) shapeCasts_S5000_S5000x1) broadcasts_S5000x1_S5000x40)))
      0x00000000#32 reduces_S5000x40_S5000 (.inl rfl) rfl) shapeCasts_S5000_S5000x1)) broadcasts_S5000x1_S5000x40)

/-- The block log-softmax at (p, j) is the row function of row p. -/
theorem lsmB_row (Z : FVec Ideal S5000x40 .f32) (p : Fin 5000) (j : Fin 40) :
    lsmB Z (ix2 p j) = lsmE (fun a => Z (ix2 p a)) j := by
  have hM : ∀ a : Fin 40, (broadcastTo S5000x40 (shapeCast S5000x1 (maximumf (broadcast S5000 (Scalar.ofBits .f32 0xFF800000#32))
      (multiReduction .maximumf [1] S5000 Z 0xFF800000#32 reduces_S5000x40_S5000 (.inl rfl) rfl)) shapeCasts_S5000_S5000x1) broadcasts_S5000x1_S5000x40) (ix2 p a)
      = rowMaxE (fun a => Z (ix2 p a)) := fun a =>
    (Cert.LibRow.colBroadcast_apply _ _ _ p a).trans ((maximumf_apply _ _ _).trans
      (congrArg (max (Ideal.ofBits .f32 0xFF800000#32)) (Cert.LibRow.rowMax_apply Z _ _ _ _ p)))
  unfold lsmB lsmE
  refine (subf_apply _ _ _).trans (congrArg₂ (· - ·) ((subf_apply _ _ _).trans (congrArg₂ (· - ·) rfl (hM j))) ?_)
  refine (bcastTo_col _ _ p j).trans ((vlog_apply _ _).trans (congrArg Ideal.log ((shapeCast_col _ _ p).trans
    ((Cert.LibRow.rowAdd_apply _ _ _ _ p).trans (Finset.sum_congr rfl fun a _ =>
      (vexp_apply _ _).trans (congrArg Ideal.exp ((subf_apply _ _ _).trans (congrArg₂ (· - ·) rfl (hM a)))))))))

/-- The third call's stored value at (p, j): the log-softmax of the logits of row p. -/
theorem k2_pay1_row (v33 : FVec Ideal S5000x128 .bf16) (v35 : FVec Ideal S128x40 .bf16) (v37 : Vec Ideal S1x40 .f32) (p : Fin 5000) (j : Fin 40) :
    Cert.KernelIdeal.Gen.k2_pay1 v33 v35 v37 (ix2 p j)
      = lsmE (fun a => logitE (fun k => v33 (ix2 p k)) v35 (v37 (ix2 (0 : Fin 1) a)) a) j := by
  have e : Cert.KernelIdeal.Gen.k2_pay1 v33 v35 v37
      = lsmB (addf (matmul DK40 none v33 v35 (constant S5000x40 .f32 0x00000000#32))
          (broadcastTo S5000x40 (shapeCast S1x40 v37 shapeCasts_S1x40_S1x40) broadcasts_S1x40_S5000x40)) := rfl
  rw [e, lsmB_row]
  refine congrArg (fun z => lsmE z j) (funext fun a => ?_)
  unfold logitE
  exact congrArg₂ (· + ·) (Cert.LibMatmulZero.matmul_zero_ix2 DK40 rfl rfl rfl rfl DK40_l0 DK40_r1 none _ _ p a)
    ((bcastTo_row _ _ p a).trans (congrFun (shapeCast_self v37 _) _))

end Kernel

end Cert.Sage

end
-- ==== Proof.HeadHid.lean ====
/-
  The third call's hidden block read at an entry: the second product's left operand at (p, l) is the combine of
  row p at column l, so the block at (p, k) is a hidden unit of that combined row.
-/
import proofs.«178627_j91216515432812_2_alg».proof.Proof.HeadDefs

noncomputable section

open scoped BigOperators

namespace Cert.Sage

open Idealize.ShloMosaic Idealize.ShloMosaic.ValueIdx

section Kernel

open Cert.KernelIdeal Cert.KernelIdeal.Facts₀ Cert.KernelIdeal.Facts

/-- The third call's hidden block at (p, k): the combine of row p, then a hidden unit. -/
theorem k2_pay2_row (v0 v7 : Vec Ideal S5000x128 .f32) (v2 : Vec Ideal S5000x1 .f32) (v10 v12 v24 : Vec Ideal S128x128 .f32)
    (v15 v27 : Vec Ideal S1x128 .f32) (p : Fin 5000) (k : Fin 128) :
    Cert.KernelIdeal.Gen.k2_pay2 v0 v2 v7 v10 v12 v15 v24 v27 (ix2 p k)
      = hidE (fun l => combE (fun k' => v0 (ix2 p k')) (fun k' => v7 (ix2 p k')) (v2 (ix2 p (0 : Fin 1))) v10 v12 (v15 (ix2 (0 : Fin 1) l)) l)
          v24 (v27 (ix2 (0 : Fin 1) k)) k := by
  unfold Cert.KernelIdeal.Gen.k2_pay2 hidE
  refine congrArg₂ max (congrArg₂ (· + ·) ?_ ?_) rfl
  · refine (Cert.LibMatmulZero.matmul_zero_ix2 DK rfl rfl rfl rfl DK_l0 DK_r1 none _ _ p k).trans (Finset.sum_congr rfl fun l _ => ?_)
    refine congrArg₂ (· * ·) ?_ rfl
    -- the left operand at (p, l) is the second call's tree at (p, l)
    exact k1_row v0 v7 v2 v10 v12 v15 p l
  · exact (bcastTo_row _ _ p k).trans (congrFun (shapeCast_self v27 _) _)

end Kernel

end Cert.Sage

end
-- ==== Proof.HeadHost.lean ====
/-
  The specification's classifier head read at an entry: the host's row maximum, row sum (from its initial value,
  the zero word, which is 0), logits and log-softmax at (n, j) as the row functions of row n.
-/
import proofs.«178627_j91216515432812_2_alg».proof.Proof.HeadDefs

noncomputable section

open scoped BigOperators

namespace Cert.Sage

open Idealize.ShloMosaic Idealize.ShloMosaic.ValueIdx

/-! ## The host's side -/

section Host

open Cert.ReferenceIdeal Cert.ReferenceIdeal.Facts₀ Cert.ReferenceIdeal.Facts

/-- The host's sum along the columns of an [R, C] matrix at row p: the initial value plus the sum of the row. -/
theorem hostRowAdd {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd x init h' hu (ix1 p) = init (Shape.Idx.first hu) + ∑ k : Fin C, x (ix2 p k) :=
  (Ideal.hostReduceAdd_single h' h x _ (ix1 p)).trans (congrArg (init (Shape.Idx.first hu) + ·)
    (Finset.sum_congr rfl fun k _ => congrArg x (funext fun d => Fin.ext (by
      match d with
      | ⟨0, _⟩ => rfl
      | ⟨1, _⟩ => rfl))))

/-- The reduced shape of the logits along their rows. -/
theorem redR : Shape.Reduces (⟨2, ![50000, 40]⟩ : Shape) [1] ⟨1, ![50000]⟩ := by decide

/-- The specification's row maximum at (n, a) is the row function of row n, whatever a. -/
theorem rowMaxR_row (Z : Arr Ideal S50000x40 .f32) (n : Fin 50000) (a : Fin 40) :
    rowMaxR Z (ix2 n a) = rowMaxE (fun a => Z (ix2 n a)) := by
  unfold rowMaxR rowMaxE
  refine (Cert.LibBcast.bcastCol_apply _ _ n a).trans ((Cert.LibBcast.bcastVecCol_apply _ _ n (0 : Fin 1)).trans ?_)
  refine (maximumf_apply _ _ _).trans (congrArg₂ max ?_ ?_)
  · exact (Cert.LibBcast.bcastScalar_apply _ _ _).trans (constant_apply _ _)
  · exact (Cert.LibGraph.hostRowMax_apply Z _ _ redR _ n).trans
      (congrArg (fun v => Finset.fold max v (fun k => Z (ix2 n k)) (Finset.univ : Finset (Fin 40))) (constant_apply _ _))

/-- The specification's log-softmax at (n, j) is the row function of row n. -/
theorem lsmR_row (Z : Arr Ideal S50000x40 .f32) (n : Fin 50000) (j : Fin 40) :
    lsmR Z (ix2 n j) = lsmE (fun a => Z (ix2 n a)) j := by
  unfold lsmR lsmE
  refine (subf_apply _ _ _).trans (congrArg₂ (· - ·) ((subf_apply _ _ _).trans (congrArg₂ (· - ·) rfl (rowMaxR_row Z n j))) ?_)
  refine (Cert.LibBcast.bcastCol_apply _ _ n j).trans ((hostLog_apply _ _).trans (congrArg Ideal.log
    ((Cert.LibBcast.bcastVecCol_apply _ _ n (0 : Fin 1)).trans ?_)))
  refine (hostRowAdd _ _ _ redR _ n).trans ?_
  refine (congrArg₂ (· + ·) ((constant_apply _ _).trans Ideal.ofBits_zero_f32) (Finset.sum_congr rfl fun a _ =>
    (hostExp_apply _ _).trans (congrArg Ideal.exp ((subf_apply _ _ _).trans (congrArg₂ (· - ·) rfl (rowMaxR_row Z n a)))))).trans (zero_add _)

/-- The specification's logits at (n, j): a logit of the hidden row of row n. -/
theorem logitsR_row (h : Arr Ideal S50000x128 .f32) (W1 : Arr Ideal S128x128 .f32) (b1 : Arr Ideal S128 .f32)
    (W2 : Arr Ideal S128x40 .f32) (b2 : Arr Ideal S40 .f32) (n : Fin 50000) (j : Fin 40) :
    logitsR h W1 b1 W2 b2 (ix2 n j)
      = logitE (fun k => hidE (fun l => h (ix2 n l)) W1 (b1 (ix1 k)) k) W2 (b2 (ix1 j)) j := by
  unfold logitsR logitE
  refine congrArg₂ (· + ·) ?_ ((Cert.LibBcast.bcastRow_apply _ _ n j).trans (Cert.LibBcast.bcastVecRow_apply _ _ (0 : Fin 1) j))
  refine (Cert.LibHostDot.dotGeneral_ix2 DR40 rfl rfl rfl rfl DR40_l0 DR40_r1 none _ _ n j).trans (Finset.sum_congr rfl fun k _ => ?_)
  refine congrArg₂ (· * ·) ?_ rfl
  unfold hidE
  refine congrArg₂ max (congrArg₂ (· + ·) ?_ ?_) (Cert.LibBcast.bcastScalar_apply _ _ _)
  · exact (Cert.LibHostDot.dotGeneral_ix2 DR rfl rfl rfl rfl DR_l0 DR_r1 none _ _ n k).trans (Finset.sum_congr rfl fun l _ => rfl)
  · exact (Cert.LibBcast.bcastRow_apply _ _ n k).trans (Cert.LibBcast.bcastVecRow_apply _ _ (0 : Fin 1) k)

end Host

end Cert.Sage

end
-- ==== Proof.HeadEntry.lean ====
/-
  The third call's stored value at one entry is the specification's output at the matching entry.

  Take a block point whose row p is row n of the tables: row p of the neighbour-sum block and of the node block are
  rows n of their tables, the reciprocal column holds 1 / D(n) with D(n) ≠ 0, and the weight and bias blocks are the
  whole arrays (the biases as rows of one).  Then the value the body stores at (p, j) is the specification's
  log-softmax of logits of the layer at (n, j).  Both sides are the row function `lsmE` of logits `logitE` of
  hidden units `hidE` of the dense step at row n; the dense step is the scaled form on one side and the divided form
  on the other, equal since D(n) ≠ 0.
-/
import proofs.«178627_j91216515432812_2_alg».proof.Proof.HeadLsm
import proofs.«178627_j91216515432812_2_alg».proof.Proof.HeadHid
import proofs.«178627_j91216515432812_2_alg».proof.Proof.HeadHost

noncomputable section

open scoped BigOperators

namespace Cert.Sage

open Idealize.ShloMosaic Idealize.ShloMosaic.ValueIdx

theorem head_entry
    (B0 B1 : Vec Ideal Cert.KernelIdeal.S5000x128 .f32) (B2 : Vec Ideal Cert.KernelIdeal.S5000x1 .f32)
    (B3 B5 B6 : Vec Ideal Cert.KernelIdeal.S128x128 .f32) (B4 B7 : Vec Ideal Cert.KernelIdeal.S1x128 .f32)
    (B8 : Vec Ideal Cert.KernelIdeal.S128x40 .f32) (B9 : Vec Ideal Cert.KernelIdeal.S1x40 .f32)
    (A h : Arr Ideal Cert.ReferenceIdeal.S50000x128 .f32) (D : Arr Ideal Cert.ReferenceIdeal.S50000 .f32)
    (bl b1 : Arr Ideal Cert.ReferenceIdeal.S128 .f32) (b2 : Arr Ideal Cert.ReferenceIdeal.S40 .f32)
    (p : Fin 5000) (n : Fin 50000) (j : Fin 40)
    (hA : ∀ k : Fin 128, B0 (ix2 p k) = A (ix2 n k)) (hH : ∀ k : Fin 128, B1 (ix2 p k) = h (ix2 n k))
    (hI : B2 (ix2 p (0 : Fin 1)) = Ideal.div 1 (D (ix1 n))) (hDn : D (ix1 n) ≠ 0)
    (hbl : ∀ q : Fin 128, B4 (ix2 (0 : Fin 1) q) = bl (ix1 q)) (hb1 : ∀ q : Fin 128, B7 (ix2 (0 : Fin 1) q) = b1 (ix1 q))
    (hb2 : ∀ a : Fin 40, B9 (ix2 (0 : Fin 1) a) = b2 (ix1 a)) :
    Cert.KernelIdeal.Gen.k2_pay1 (Cert.KernelIdeal.Gen.k2_pay2 B0 B2 B1 B3 B5 B4 B6 B7) (Cert.KernelIdeal.Gen.k2_pay3 B8) B9 (ix2 p j)
      = lsmR (logitsR (layerR A h D B3 bl B5) B6 b1 B8 b2) (ix2 n j) := by
  rw [k2_pay1_row, lsmR_row]
  refine congrArg (fun z => lsmE z j) (funext fun a => ?_)
  rw [logitsR_row, hb2 a]
  refine congrArg (fun r => logitE r B8 (b2 (ix1 a)) a) (funext fun k => ?_)
  rw [k2_pay2_row, hb1 k]
  refine congrArg (fun r => hidE r B6 (b1 (ix1 k)) k) (funext fun l => ?_)
  rw [layerR_row, ← combE_recip _ _ _ hDn, hI, hbl l]
  simp only [hA, hH]

end Cert.Sage

end
-- ==== Proof.Region2.lean ====
/-
  What the third pallas_call leaves in its output array.

  Ten grid points again, point t handling rows 5000·t … 5000·t + 4999: the neighbour sums, the node table, the
  reciprocal column and the [50000, 40] output move with t along the rows; the three [128, 128] weights, the
  [128, 40] weight and the three bias rows are one block each.  With the reciprocal column at 1 / D(n), D(n) ≠ 0, and
  the bias rows at bl, b1, b2, what point t writes back is block t of the specification's output for the tables the
  call found: the third layer, the classifier's logits, the row-wise log-softmax (`flushed2`, entry by entry from
  `head_entry`).  The ten blocks cover the output (`cover2`), so the array ends holding it (`region2`).
-/
import proofs.«178627_j91216515432812_2_alg».proof.Proof.HeadEntry
import proofs.«178627_j91216515432812_2_alg».proof.Proof.Gen.KernelIdeal.Frame
import Idealize.ShloMosaic.Lib.Pipeline.Value

set_option maxRecDepth 16384

noncomputable section

namespace Cert.KernelIdeal.Val2

open Cert.KernelIdeal Cert.KernelIdeal.Gen Cert.Sage
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: windows 0, 1, 2 and 10 move with the point along the rows, the
    other seven stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-! ## A block's entry is its table's -/

theorem blkA (c : Dev nD) (t : Fin cfg2.N) (p : Fin 5000) (k : Fin 128) (n : Fin 50000) (hn : n.val = t.val * 5000 + p.val) :
    iblk2 V c 0 t (ix2 p k) = V c main_v45 (ix2 n k) := by
  obtain ⟨e0, e1, -⟩ := idx2 t
  show V c main_v45 (((cfg2.win 0).blk t).view.emb (ix2 p k)) = V c main_v45 (ix2 n k)
  refine congrArg (V c main_v45) (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

theorem blkH (c : Dev nD) (t : Fin cfg2.N) (p : Fin 5000) (k : Fin 128) (n : Fin 50000) (hn : n.val = t.val * 5000 + p.val) :
    iblk2 V c 1 t (ix2 p k) = V c main_v35 (ix2 n k) := by
  obtain ⟨-, -, e0, e1, -⟩ := idx2 t
  show V c main_v35 (((cfg2.win 1).blk t).view.emb (ix2 p k)) = V c main_v35 (ix2 n k)
  refine congrArg (V c main_v35) (funext fun a => Fin.ext ?_)
  match a with
  | ⟨0, _⟩ => show win2_1.index t (0 : Fin 2) * 5000 + 1 * p.val = n.val; omega
  | ⟨1, _⟩ => show win2_1.index t (1 : Fin 2) * 128 + 1 * k.val = k.val; omega

theorem blkI (c : Dev nD) (t : Fin cfg2.N) (p : Fin 5000) (n : Fin 50000) (hn : n.val = t.val * 5000 + p.val) :
    iblk2 V c 2 t (ix2 p (0 : Fin 1)) = V c main_v11 (ix2 n (0 : Fin 1)) := by
  obtain ⟨-, -, -, -, e0, e1, -⟩ := idx2 t
  show V c main_v11 (((cfg2.win 2).blk t).view.emb (ix2 p (0 : Fin 1))) = V c main_v11 (ix2 n (0 : Fin 1))
  refine congrArg (V c main_v11) (funext fun a => Fin.ext ?_)
  match a with
  | ⟨0, _⟩ => show win2_2.index t (0 : Fin 2) * 5000 + 1 * p.val = n.val; omega
  | ⟨1, _⟩ => show win2_2.index t (1 : Fin 2) * 1 + 1 * 0 = 0; omega

theorem blkWl (c : Dev nD) (t : Fin cfg2.N) : iblk2 V c 3 t = V c main_arg8 := by
  obtain ⟨-, -, -, -, -, -, e0, e1, -⟩ := idx2 t
  funext y
  show V c main_arg8 (((cfg2.win 3).blk t).view.emb y) = V c main_arg8 y
  refine congrArg (V c main_arg8) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem blkBl (c : Dev nD) (t : Fin cfg2.N) (q : Fin 128) : iblk2 V c 4 t (ix2 (0 : Fin 1) q) = V c main_v46 (ix2 (0 : Fin 1) q) := by
  obtain ⟨-, -, -, -, -, -, -, -, e0, e1, -⟩ := idx2 t
  show V c main_v46 (((cfg2.win 4).blk t).view.emb (ix2 (0 : Fin 1) q)) = V c main_v46 (ix2 (0 : Fin 1) q)
  refine congrArg (V c main_v46) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

theorem blkWr (c : Dev nD) (t : Fin cfg2.N) : iblk2 V c 5 t = V c main_arg10 := by
  obtain ⟨-, -, -, -, -, -, -, -, -, -, e0, e1, -⟩ := idx2 t
  funext y
  show V c main_arg10 (((cfg2.win 5).blk t).view.emb y) = V c main_arg10 y
  refine congrArg (V c main_arg10) (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem blkW1 (c : Dev nD) (t : Fin cfg2.N) : iblk2 V c 6 t = V c main_arg11 := by
  obtain ⟨-, -, -, -, -, -, -, -, -, -, -, -, e0, e1, -⟩ := idx2 t
  funext y
  show V c main_arg11 (((cfg2.win 6).blk t).view.emb y) = V c main_arg11 y
  refine congrArg (V c main_arg11) (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega

theorem blkB1 (c : Dev nD) (t : Fin cfg2.N) (q : Fin 128) : iblk2 V c 7 t (ix2 (0 : Fin 1) q) = V c main_v47 (ix2 (0 : Fin 1) q) := by
  obtain ⟨-, -, -, -, -, -, -, -, -, -, -, -, -, -, e0, e1, -⟩ := idx2 t
  show V c main_v47 (((cfg2.win 7).blk t).view.emb (ix2 (0 : Fin 1) q)) = V c main_v47 (ix2 (0 : Fin 1) q)
  refine congrArg (V c main_v47) (funext fun a => Fin.ext ?_)
  match a with
  | ⟨0, _⟩ => show win2_7.index t (0 : Fin 2) * 1 + 1 * 0 = 0; omega
  | ⟨1, _⟩ => show win2_7.index t (1 : Fin 2) * 128 + 1 * q.val = q.val; omega

theorem blkW2 (c : Dev nD) (t : Fin cfg2.N) : iblk2 V c 8 t = V c main_arg13 := by
  obtain ⟨-, -, -, -, -, -, -, -, -, -, -, -, -, -, -, -, e0, e1, -⟩ := idx2 t
  funext y
  show V c main_arg13 (((cfg2.win 8).blk t).view.emb y) = V c main_arg13 y
  refine congrArg (V c main_arg13) (funext fun a => Fin.ext ?_)
  match a with
  | ⟨0, _⟩ => show win2_8.index t (0 : Fin 2) * 128 + 1 * (y 0).val = (y 0).val; omega
  | ⟨1, _⟩ => show win2_8.index t (1 : Fin 2) * 40 + 1 * (y 1).val = (y 1).val; omega

theorem blkB2 (c : Dev nD) (t : Fin cfg2.N) (q : Fin 40) : iblk2 V c 9 t (ix2 (0 : Fin 1) q) = V c main_v48 (ix2 (0 : Fin 1) q) := by
  obtain ⟨-, -, -, -, -, -, -, -, -, -, -, -, -, -, -, -, -, -, e0, e1, -⟩ := idx2 t
  show V c main_v48 (((cfg2.win 9).blk t).view.emb (ix2 (0 : Fin 1) q)) = V c main_v48 (ix2 (0 : Fin 1) q)
  refine congrArg (V c main_v48) (funext fun a => Fin.ext ?_)
  match a with
  | ⟨0, _⟩ => show win2_9.index t (0 : Fin 2) * 1 + 1 * 0 = 0; omega
  | ⟨1, _⟩ => show win2_9.index t (1 : Fin 2) * 40 + 1 * q.val = q.val; omega

/-! ## What a point writes back -/

/-- Point t writes back block t of the specification's output for the tables. -/
theorem flushed2 (c : Dev nD) (D : Arr Ideal Cert.ReferenceIdeal.S50000 .f32) (bl b1 : Arr Ideal Cert.ReferenceIdeal.S128 .f32)
    (b2 : Arr Ideal Cert.ReferenceIdeal.S40 .f32)
    (hD : ∀ n : Fin 50000, D (ix1 n) ≠ 0)
    (hinv : ∀ n : Fin 50000, V c main_v11 (ix2 n (0 : Fin 1)) = Ideal.div 1 (D (ix1 n)))
    (hbl : ∀ q : Fin 128, V c main_v46 (ix2 (0 : Fin 1) q) = bl (ix1 q))
    (hb1 : ∀ q : Fin 128, V c main_v47 (ix2 (0 : Fin 1) q) = b1 (ix1 q))
    (hb2 : ∀ a : Fin 40, V c main_v48 (ix2 (0 : Fin 1) a) = b2 (ix1 a)) (t : Fin cfg2.N) :
    (dat2 V c).flushed 10 t = ((cfg2.win 10).blk t).view.read (Elt Ideal)
      (lsmR (logitsR (layerR (V c main_v45) (V c main_v35) D (V c main_arg8) bl (V c main_arg10)) (V c main_arg11) b1 (V c main_arg13) b2)) := by
  show (cfg2.win 10).cut (grid2.coords t) ((dat2 V c).after 10 t) = _
  rw [after2_10]
  unfold out2_10
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  have hN : cfg2.N = 10 := N_2
  have ht : t.val < 10 := hN ▸ t.isLt
  have hp : p.val < 5000 := p.isLt
  obtain ⟨n, hn⟩ : ∃ n : Fin 50000, n.val = t.val * 5000 + p.val := ⟨⟨t.val * 5000 + p.val, by omega⟩, rfl⟩
  have hR : ((cfg2.win 10).blk t).view.read (Elt Ideal)
      (lsmR (logitsR (layerR (V c main_v45) (V c main_v35) D (V c main_arg8) bl (V c main_arg10)) (V c main_arg11) b1 (V c main_arg13) b2)) (ix2 p q)
      = (lsmR (logitsR (layerR (V c main_v45) (V c main_v35) D (V c main_arg8) bl (V c main_arg10)) (V c main_arg11) b1 (V c main_arg13) b2)) (ix2 n q) := by
    obtain ⟨-, -, -, -, -, -, -, -, -, -, -, -, -, -, -, -, -, -, -, -, e0, e1⟩ := idx2 t
    show (lsmR (logitsR (layerR (V c main_v45) (V c main_v35) D (V c main_arg8) bl (V c main_arg10)) (V c main_arg11) b1 (V c main_arg13) b2)) (((cfg2.win 10).blk t).view.emb (ix2 p q)) = _
    refine congrArg _ (funext fun a => Fin.ext ?_)
    match a with
    | ⟨0, _⟩ => show win2_10.index t (0 : Fin 2) * 5000 + 1 * p.val = n.val; omega
    | ⟨1, _⟩ => show win2_10.index t (1 : Fin 2) * 40 + 1 * q.val = q.val; omega
  rw [hR]
  refine (head_entry (iblk2 V c 0 t) (iblk2 V c 1 t) (iblk2 V c 2 t) (iblk2 V c 3 t) (iblk2 V c 5 t) (iblk2 V c 6 t)
    (iblk2 V c 4 t) (iblk2 V c 7 t) (iblk2 V c 8 t) (iblk2 V c 9 t) (V c main_v45) (V c main_v35) D bl b1 b2 p n q
    (fun k => blkA V c t p k n hn) (fun k => blkH V c t p k n hn) ((blkI V c t p n hn).trans (hinv n)) (hD n)
    (fun q' => (blkBl V c t q').trans (hbl q')) (fun q' => (blkB1 V c t q').trans (hb1 q'))
    (fun a => (blkB2 V c t a).trans (hb2 a))).trans ?_
  rw [blkWl V c t, blkWr V c t, blkW1 V c t, blkW2 V c t]

/-! ## The blocks cover the array -/

theorem mem_blk2 (t : Fin cfg2.N) (i : S50000x40.Idx) :
    i ∈ ((cfg2.win 10).blk t).view.set ↔ ∀ a : Fin 2, win2_10.index t a * S5000x40.size a ≤ (i a).val ∧ (i a).val < win2_10.index t a * S5000x40.size a + S5000x40.size a := by
  show i ∈ ((View.whole main_v49).slice (win2_10.rect t)).set ↔ _
  rw [View.set_slice_whole, Rect.mem_set_unit]
  exact Iff.rfl

theorem cover2 (i : S50000x40.Idx) : ∃ t : Fin cfg2.N, (cfg2.win 10).flush t = true ∧ i ∈ ((cfg2.win 10).blk t).view.set := by
  have hi0 : (i 0).val < 50000 := (i 0).isLt
  have hi1 : (i 1).val < 40 := (i 1).isLt
  have hN : cfg2.N = 10 := N_2
  obtain ⟨t, htv⟩ : ∃ t : Fin cfg2.N, t.val = (i 0).val / 5000 := ⟨⟨(i 0).val / 5000, by omega⟩, rfl⟩
  refine ⟨t, flush2_10 t, ?_⟩
  rw [mem_blk2]
  obtain ⟨-, -, -, -, -, -, -, -, -, -, -, -, -, -, -, -, -, -, -, -, e0, e1⟩ := idx2 t
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 40 ≤ (i 1).val ∧ (i 1).val < win2_10.index t (1 : Fin 2) * 40 + 40; omega

/-! ## The array after the call -/

/-- The call's output array ends holding the specification's output for the tables the call found. -/
theorem region2 (c : Dev nD) (D : Arr Ideal Cert.ReferenceIdeal.S50000 .f32) (bl b1 : Arr Ideal Cert.ReferenceIdeal.S128 .f32)
    (b2 : Arr Ideal Cert.ReferenceIdeal.S40 .f32)
    (hD : ∀ n : Fin 50000, D (ix1 n) ≠ 0)
    (hinv : ∀ n : Fin 50000, V c main_v11 (ix2 n (0 : Fin 1)) = Ideal.div 1 (D (ix1 n)))
    (hbl : ∀ q : Fin 128, V c main_v46 (ix2 (0 : Fin 1) q) = bl (ix1 q))
    (hb1 : ∀ q : Fin 128, V c main_v47 (ix2 (0 : Fin 1) q) = b1 (ix1 q))
    (hb2 : ∀ a : Fin 40, V c main_v48 (ix2 (0 : Fin 1) a) = b2 (ix1 a)) :
    (dat2 V c).arrAt 10 cfg2.N = (lsmR (logitsR (layerR (V c main_v45) (V c main_v35) D (V c main_arg8) bl (V c main_arg10)) (V c main_arg11) b1 (V c main_arg13) b2)) :=
  (dat2 V c).arrAt_eq_of_cover 10 _ (fun t _ => flushed2 V c D bl b1 b2 hD hinv hbl hb1 hb2 t) cover2

end Cert.KernelIdeal.Val2

end
-- ==== Proof.KWalk.lean ====
/-
  The kernel program's buffers, boundary by boundary, and its result.

  @main's eight segments are walked in order.  At the first call's entry the host has computed the edge list's rows,
  the clipped degrees' reciprocal column, the neighbour sums of the input table and the first bias as a row; the
  call leaves the first layer's table (the call's array lemma, its hypotheses being the reciprocal column's and the
  bias row's entries).  A stretch then gathers and adds that table along the same edges, the second call leaves the
  second layer's table, and likewise the third call leaves the classifier's log-softmax of the third layer.  What a
  segment does not write it passes on: a stretch by its pass lemma, a call by the generated lemmas on its arrays (an
  input array is left as found, any other buffer untouched).  At the last boundary the result buffer holds the
  specification's output of the launched arguments (`W8_v49`).
-/
import proofs.«178627_j91216515432812_2_alg».proof.Proof.KHost
import proofs.«178627_j91216515432812_2_alg».proof.Proof.Region0
import proofs.«178627_j91216515432812_2_alg».proof.Proof.Region1
import proofs.«178627_j91216515432812_2_alg».proof.Proof.Region2

set_option maxRecDepth 16384

noncomputable section

namespace Cert.KernelIdeal.Walk

open Cert.KernelIdeal Cert.KernelIdeal.Gen Cert.Sage
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The edge list's two rows, as functions of the launched edge list. -/
abbrev sK : Arr Ideal Cert.ReferenceIdeal.S600000 .i32 := srcOf (m ((c : Thread nD τ).loc main_arg1))
abbrev dK : Arr Ideal Cert.ReferenceIdeal.S600000 .i32 := dstOf (m ((c : Thread nD τ).loc main_arg1))

/-- The three layers' tables, as the specification names them. -/
abbrev h1K : Arr Ideal Cert.ReferenceIdeal.S50000x128 .f32 := sageR (sK m c) (dK m c) (m ((c : Thread nD τ).loc main_arg0)) (m ((c : Thread nD τ).loc main_arg2)) (m ((c : Thread nD τ).loc main_arg3)) (m ((c : Thread nD τ).loc main_arg4))
abbrev h2K : Arr Ideal Cert.ReferenceIdeal.S50000x128 .f32 := sageR (sK m c) (dK m c) (h1K m c) (m ((c : Thread nD τ).loc main_arg5)) (m ((c : Thread nD τ).loc main_arg6)) (m ((c : Thread nD τ).loc main_arg7))

/-! ## Up to the first call -/

theorem W1_v1 : W1 m ρ c (Proc.devRef .tc main_v1) = (sK m c) := H0_v1 (W0 m ρ c)
theorem W1_v3 : W1 m ρ c (Proc.devRef .tc main_v3) = (dK m c) := H0_v3 (W0 m ρ c)
theorem W1_v7 : W1 m ρ c (Proc.devRef .tc main_v7) = deg (dK m c) := H0_v7 (W0 m ρ c)
theorem W1_cst1 : W1 m ρ c (Proc.devRef .tc main_cst_1) = (constant (F := Ideal) Cert.ReferenceIdeal.S_ .f32 0x3F800000#32 : Arr Ideal Cert.ReferenceIdeal.S_ .f32) :=
  H0_cst1 (W0 m ρ c)
theorem W2_v8 : W2 m ρ c (Proc.devRef .tc main_v8) = dcl (dK m c) :=
  (Hc_v8 (W1 m ρ c)).trans (by rw [W1_cst1 m ρ c, W1_v7 m ρ c]; exact clipR_one _)
theorem W2_v1 : W2 m ρ c (Proc.devRef .tc main_v1) = (sK m c) := (Hc_pass (W1 m ρ c) main_v1 (by decide)).trans (W1_v1 m ρ c)
theorem W2_v3 : W2 m ρ c (Proc.devRef .tc main_v3) = (dK m c) := (Hc_pass (W1 m ρ c) main_v3 (by decide)).trans (W1_v3 m ρ c)
theorem W2_arg0 : W2 m ρ c (Proc.devRef .tc main_arg0) = (m ((c : Thread nD τ).loc main_arg0)) :=
  ((Hc_pass (W1 m ρ c) main_arg0 (by decide)).trans (H0_pass (W0 m ρ c) main_arg0 (by decide))).trans (rfl : W0 m ρ c (Proc.devRef .tc main_arg0) = (m ((c : Thread nD τ).loc main_arg0)))
theorem W2_arg3 : W2 m ρ c (Proc.devRef .tc main_arg3) = (m ((c : Thread nD τ).loc main_arg3)) :=
  ((Hc_pass (W1 m ρ c) main_arg3 (by decide)).trans (H0_pass (W0 m ρ c) main_arg3 (by decide))).trans (rfl : W0 m ρ c (Proc.devRef .tc main_arg3) = (m ((c : Thread nD τ).loc main_arg3)))

theorem W3_v11 : W3 m ρ c (Proc.devRef .tc main_v11) = invColK (dcl (dK m c)) := (H2_v11 (W2 m ρ c)).trans (congrArg invColK (W2_v8 m ρ c))
theorem W3_v21 : W3 m ρ c (Proc.devRef .tc main_v21) = agg (sK m c) (dK m c) (m ((c : Thread nD τ).loc main_arg0)) :=
  (H2_v21 (W2 m ρ c)).trans (by rw [W2_v1 m ρ c, W2_v3 m ρ c, W2_arg0 m ρ c])
theorem W3_v22 : W3 m ρ c (Proc.devRef .tc main_v22) = biasRowK (m ((c : Thread nD τ).loc main_arg3)) := (H2_v22 (W2 m ρ c)).trans (congrArg biasRowK (W2_arg3 m ρ c))
theorem W3_arg0 : W3 m ρ c (Proc.devRef .tc main_arg0) = (m ((c : Thread nD τ).loc main_arg0)) :=
  ((H2_pass (W2 m ρ c) main_arg0 (by decide)).trans ((Hc_pass (W1 m ρ c) main_arg0 (by decide)).trans (H0_pass (W0 m ρ c) main_arg0 (by decide)))).trans (rfl : W0 m ρ c (Proc.devRef .tc main_arg0) = (m ((c : Thread nD τ).loc main_arg0)))
theorem W3_arg2 : W3 m ρ c (Proc.devRef .tc main_arg2) = (m ((c : Thread nD τ).loc main_arg2)) :=
  ((H2_pass (W2 m ρ c) main_arg2 (by decide)).trans ((Hc_pass (W1 m ρ c) main_arg2 (by decide)).trans (H0_pass (W0 m ρ c) main_arg2 (by decide)))).trans (rfl : W0 m ρ c (Proc.devRef .tc main_arg2) = (m ((c : Thread nD τ).loc main_arg2)))
theorem W3_arg4 : W3 m ρ c (Proc.devRef .tc main_arg4) = (m ((c : Thread nD τ).loc main_arg4)) :=
  ((H2_pass (W2 m ρ c) main_arg4 (by decide)).trans ((Hc_pass (W1 m ρ c) main_arg4 (by decide)).trans (H0_pass (W0 m ρ c) main_arg4 (by decide)))).trans (rfl : W0 m ρ c (Proc.devRef .tc main_arg4) = (m ((c : Thread nD τ).loc main_arg4)))

/-! ## The first call, and up to the second -/

/-- The first call leaves the first layer's table. -/
theorem W4_v23 : W4 m ρ c (Proc.devRef .tc main_v23) = h1K m c := by
  refine (W4_arr m ρ c 6).trans ((Cert.KernelIdeal.Val0.region0 (V3 m ρ) c (dcl (dK m c)) (m ((c : Thread nD τ).loc main_arg3)) (dcl_ne_zero (dK m c))
    (fun n => (congrFun (W3_v11 m ρ c) _).trans (invColK_apply _ n))
    (fun q => (congrFun (W3_v22 m ρ c) _).trans (biasRowK_apply _ q))).trans ?_)
  show layerR (W3 m ρ c (Proc.devRef .tc main_v21)) (W3 m ρ c (Proc.devRef .tc main_arg0)) _ (W3 m ρ c (Proc.devRef .tc main_arg2)) _ (W3 m ρ c (Proc.devRef .tc main_arg4)) = _
  rw [W3_v21 m ρ c, W3_arg0 m ρ c, W3_arg2 m ρ c, W3_arg4 m ρ c]
  rfl
theorem W4_v1 : W4 m ρ c (Proc.devRef .tc main_v1) = (sK m c) := ((W4_of_ne m ρ c main_v1 (by decide)).trans ((H2_pass (W2 m ρ c) main_v1 (by decide)).trans (Hc_pass (W1 m ρ c) main_v1 (by decide)))).trans (W1_v1 m ρ c)
theorem W4_v3 : W4 m ρ c (Proc.devRef .tc main_v3) = (dK m c) := ((W4_of_ne m ρ c main_v3 (by decide)).trans ((H2_pass (W2 m ρ c) main_v3 (by decide)).trans (Hc_pass (W1 m ρ c) main_v3 (by decide)))).trans (W1_v3 m ρ c)
theorem W4_v11 : W4 m ρ c (Proc.devRef .tc main_v11) = invColK (dcl (dK m c)) := ((W4_arr m ρ c 2).trans (((dat0 (V3 m ρ) c).arrAt_in 2 rfl _).trans (A_eq0 (V3 m ρ) c 2))).trans (W3_v11 m ρ c)
theorem W4_arg6 : W4 m ρ c (Proc.devRef .tc main_arg6) = (m ((c : Thread nD τ).loc main_arg6)) :=
  ((W4_of_ne m ρ c main_arg6 (by decide)).trans ((H2_pass (W2 m ρ c) main_arg6 (by decide)).trans ((Hc_pass (W1 m ρ c) main_arg6 (by decide)).trans (H0_pass (W0 m ρ c) main_arg6 (by decide))))).trans (rfl : W0 m ρ c (Proc.devRef .tc main_arg6) = (m ((c : Thread nD τ).loc main_arg6)))

theorem W5_v33 : W5 m ρ c (Proc.devRef .tc main_v33) = agg (sK m c) (dK m c) (h1K m c) :=
  (H3_v33 (W4 m ρ c)).trans (by rw [W4_v1 m ρ c, W4_v3 m ρ c, W4_v23 m ρ c])
theorem W5_v34 : W5 m ρ c (Proc.devRef .tc main_v34) = biasRowK (m ((c : Thread nD τ).loc main_arg6)) := (H3_v34 (W4 m ρ c)).trans (congrArg biasRowK (W4_arg6 m ρ c))
theorem W5_v23 : W5 m ρ c (Proc.devRef .tc main_v23) = h1K m c := (H3_pass (W4 m ρ c) main_v23 (by decide)).trans (W4_v23 m ρ c)
theorem W5_v11 : W5 m ρ c (Proc.devRef .tc main_v11) = invColK (dcl (dK m c)) := (H3_pass (W4 m ρ c) main_v11 (by decide)).trans (W4_v11 m ρ c)
theorem W5_arg5 : W5 m ρ c (Proc.devRef .tc main_arg5) = (m ((c : Thread nD τ).loc main_arg5)) :=
  ((H3_pass (W4 m ρ c) main_arg5 (by decide)).trans ((W4_of_ne m ρ c main_arg5 (by decide)).trans ((H2_pass (W2 m ρ c) main_arg5 (by decide)).trans ((Hc_pass (W1 m ρ c) main_arg5 (by decide)).trans (H0_pass (W0 m ρ c) main_arg5 (by decide)))))).trans (rfl : W0 m ρ c (Proc.devRef .tc main_arg5) = (m ((c : Thread nD τ).loc main_arg5)))
theorem W5_arg7 : W5 m ρ c (Proc.devRef .tc main_arg7) = (m ((c : Thread nD τ).loc main_arg7)) :=
  ((H3_pass (W4 m ρ c) main_arg7 (by decide)).trans ((W4_of_ne m ρ c main_arg7 (by decide)).trans ((H2_pass (W2 m ρ c) main_arg7 (by decide)).trans ((Hc_pass (W1 m ρ c) main_arg7 (by decide)).trans (H0_pass (W0 m ρ c) main_arg7 (by decide)))))).trans (rfl : W0 m ρ c (Proc.devRef .tc main_arg7) = (m ((c : Thread nD τ).loc main_arg7)))

/-! ## The second call, and up to the third -/

/-- The second call leaves the second layer's table. -/
theorem W6_v35 : W6 m ρ c (Proc.devRef .tc main_v35) = h2K m c := by
  refine (W6_arr m ρ c 6).trans ((Cert.KernelIdeal.Val1.region1 (V5 m ρ) c (dcl (dK m c)) (m ((c : Thread nD τ).loc main_arg6)) (dcl_ne_zero (dK m c))
    (fun n => (congrFun (W5_v11 m ρ c) _).trans (invColK_apply _ n))
    (fun q => (congrFun (W5_v34 m ρ c) _).trans (biasRowK_apply _ q))).trans ?_)
  show layerR (W5 m ρ c (Proc.devRef .tc main_v33)) (W5 m ρ c (Proc.devRef .tc main_v23)) _ (W5 m ρ c (Proc.devRef .tc main_arg5)) _ (W5 m ρ c (Proc.devRef .tc main_arg7)) = _
  rw [W5_v33 m ρ c, W5_v23 m ρ c, W5_arg5 m ρ c, W5_arg7 m ρ c]
  rfl
theorem W6_v1 : W6 m ρ c (Proc.devRef .tc main_v1) = (sK m c) := ((W6_of_ne m ρ c main_v1 (by decide)).trans (H3_pass (W4 m ρ c) main_v1 (by decide))).trans (W4_v1 m ρ c)
theorem W6_v3 : W6 m ρ c (Proc.devRef .tc main_v3) = (dK m c) := ((W6_of_ne m ρ c main_v3 (by decide)).trans (H3_pass (W4 m ρ c) main_v3 (by decide))).trans (W4_v3 m ρ c)
theorem W6_v11 : W6 m ρ c (Proc.devRef .tc main_v11) = invColK (dcl (dK m c)) := ((W6_arr m ρ c 2).trans (((dat1 (V5 m ρ) c).arrAt_in 2 rfl _).trans (A_eq1 (V5 m ρ) c 2))).trans (W5_v11 m ρ c)
theorem W6_arg9 : W6 m ρ c (Proc.devRef .tc main_arg9) = (m ((c : Thread nD τ).loc main_arg9)) :=
  ((W6_of_ne m ρ c main_arg9 (by decide)).trans ((H3_pass (W4 m ρ c) main_arg9 (by decide)).trans ((W4_of_ne m ρ c main_arg9 (by decide)).trans ((H2_pass (W2 m ρ c) main_arg9 (by decide)).trans ((Hc_pass (W1 m ρ c) main_arg9 (by decide)).trans (H0_pass (W0 m ρ c) main_arg9 (by decide))))))).trans (rfl : W0 m ρ c (Proc.devRef .tc main_arg9) = (m ((c : Thread nD τ).loc main_arg9)))
theorem W6_arg12 : W6 m ρ c (Proc.devRef .tc main_arg12) = (m ((c : Thread nD τ).loc main_arg12)) :=
  ((W6_of_ne m ρ c main_arg12 (by decide)).trans ((H3_pass (W4 m ρ c) main_arg12 (by decide)).trans ((W4_of_ne m ρ c main_arg12 (by decide)).trans ((H2_pass (W2 m ρ c) main_arg12 (by decide)).trans ((Hc_pass (W1 m ρ c) main_arg12 (by decide)).trans (H0_pass (W0 m ρ c) main_arg12 (by decide))))))).trans (rfl : W0 m ρ c (Proc.devRef .tc main_arg12) = (m ((c : Thread nD τ).loc main_arg12)))
theorem W6_arg14 : W6 m ρ c (Proc.devRef .tc main_arg14) = (m ((c : Thread nD τ).loc main_arg14)) :=
  ((W6_of_ne m ρ c main_arg14 (by decide)).trans ((H3_pass (W4 m ρ c) main_arg14 (by decide)).trans ((W4_of_ne m ρ c main_arg14 (by decide)).trans ((H2_pass (W2 m ρ c) main_arg14 (by decide)).trans ((Hc_pass (W1 m ρ c) main_arg14 (by decide)).trans (H0_pass (W0 m ρ c) main_arg14 (by decide))))))).trans (rfl : W0 m ρ c (Proc.devRef .tc main_arg14) = (m ((c : Thread nD τ).loc main_arg14)))

theorem W7_v45 : W7 m ρ c (Proc.devRef .tc main_v45) = agg (sK m c) (dK m c) (h2K m c) :=
  (H4_v45 (W6 m ρ c)).trans (by rw [W6_v1 m ρ c, W6_v3 m ρ c, W6_v35 m ρ c])
theorem W7_v46 : W7 m ρ c (Proc.devRef .tc main_v46) = biasRowK (m ((c : Thread nD τ).loc main_arg9)) := (H4_v46 (W6 m ρ c)).trans (congrArg biasRowK (W6_arg9 m ρ c))
theorem W7_v47 : W7 m ρ c (Proc.devRef .tc main_v47) = biasRowK (m ((c : Thread nD τ).loc main_arg12)) := (H4_v47 (W6 m ρ c)).trans (congrArg biasRowK (W6_arg12 m ρ c))
theorem W7_v48 : W7 m ρ c (Proc.devRef .tc main_v48) = biasRow40K (m ((c : Thread nD τ).loc main_arg14)) := (H4_v48 (W6 m ρ c)).trans (congrArg biasRow40K (W6_arg14 m ρ c))
theorem W7_v35 : W7 m ρ c (Proc.devRef .tc main_v35) = h2K m c := (H4_pass (W6 m ρ c) main_v35 (by decide)).trans (W6_v35 m ρ c)
theorem W7_v11 : W7 m ρ c (Proc.devRef .tc main_v11) = invColK (dcl (dK m c)) := (H4_pass (W6 m ρ c) main_v11 (by decide)).trans (W6_v11 m ρ c)
theorem W7_arg8 : W7 m ρ c (Proc.devRef .tc main_arg8) = (m ((c : Thread nD τ).loc main_arg8)) :=
  ((H4_pass (W6 m ρ c) main_arg8 (by decide)).trans ((W6_of_ne m ρ c main_arg8 (by decide)).trans ((H3_pass (W4 m ρ c) main_arg8 (by decide)).trans ((W4_of_ne m ρ c main_arg8 (by decide)).trans ((H2_pass (W2 m ρ c) main_arg8 (by decide)).trans ((Hc_pass (W1 m ρ c) main_arg8 (by decide)).trans (H0_pass (W0 m ρ c) main_arg8 (by decide)))))))).trans (rfl : W0 m ρ c (Proc.devRef .tc main_arg8) = (m ((c : Thread nD τ).loc main_arg8)))
theorem W7_arg10 : W7 m ρ c (Proc.devRef .tc main_arg10) = (m ((c : Thread nD τ).loc main_arg10)) :=
  ((H4_pass (W6 m ρ c) main_arg10 (by decide)).trans ((W6_of_ne m ρ c main_arg10 (by decide)).trans ((H3_pass (W4 m ρ c) main_arg10 (by decide)).trans ((W4_of_ne m ρ c main_arg10 (by decide)).trans ((H2_pass (W2 m ρ c) main_arg10 (by decide)).trans ((Hc_pass (W1 m ρ c) main_arg10 (by decide)).trans (H0_pass (W0 m ρ c) main_arg10 (by decide)))))))).trans (rfl : W0 m ρ c (Proc.devRef .tc main_arg10) = (m ((c : Thread nD τ).loc main_arg10)))
theorem W7_arg11 : W7 m ρ c (Proc.devRef .tc main_arg11) = (m ((c : Thread nD τ).loc main_arg11)) :=
  ((H4_pass (W6 m ρ c) main_arg11 (by decide)).trans ((W6_of_ne m ρ c main_arg11 (by decide)).trans ((H3_pass (W4 m ρ c) main_arg11 (by decide)).trans ((W4_of_ne m ρ c main_arg11 (by decide)).trans ((H2_pass (W2 m ρ c) main_arg11 (by decide)).trans ((Hc_pass (W1 m ρ c) main_arg11 (by decide)).trans (H0_pass (W0 m ρ c) main_arg11 (by decide)))))))).trans (rfl : W0 m ρ c (Proc.devRef .tc main_arg11) = (m ((c : Thread nD τ).loc main_arg11)))
theorem W7_arg13 : W7 m ρ c (Proc.devRef .tc main_arg13) = (m ((c : Thread nD τ).loc main_arg13)) :=
  ((H4_pass (W6 m ρ c) main_arg13 (by decide)).trans ((W6_of_ne m ρ c main_arg13 (by decide)).trans ((H3_pass (W4 m ρ c) main_arg13 (by decide)).trans ((W4_of_ne m ρ c main_arg13 (by decide)).trans ((H2_pass (W2 m ρ c) main_arg13 (by decide)).trans ((Hc_pass (W1 m ρ c) main_arg13 (by decide)).trans (H0_pass (W0 m ρ c) main_arg13 (by decide)))))))).trans (rfl : W0 m ρ c (Proc.devRef .tc main_arg13) = (m ((c : Thread nD τ).loc main_arg13)))

/-! ## The third call: the result -/

/-- THE KERNEL'S VALUE: at the last boundary the result buffer holds the specification's output of the arguments. -/
theorem W8_v49 : W8 m ρ c (Proc.devRef .tc main_v49)
    = outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 10).trans ((Cert.KernelIdeal.Val2.region2 (V7 m ρ) c (dcl (dK m c)) (m ((c : Thread nD τ).loc main_arg9)) (m ((c : Thread nD τ).loc main_arg12)) (m ((c : Thread nD τ).loc main_arg14))
    (dcl_ne_zero (dK m c))
    (fun n => (congrFun (W7_v11 m ρ c) _).trans (invColK_apply _ n))
    (fun q => (congrFun (W7_v46 m ρ c) _).trans (biasRowK_apply _ q))
    (fun q => (congrFun (W7_v47 m ρ c) _).trans (biasRowK_apply _ q))
    (fun a => (congrFun (W7_v48 m ρ c) _).trans (biasRow40K_apply _ a))).trans ?_)
  show lsmR (logitsR (layerR (W7 m ρ c (Proc.devRef .tc main_v45)) (W7 m ρ c (Proc.devRef .tc main_v35)) _ (W7 m ρ c (Proc.devRef .tc main_arg8)) _ (W7 m ρ c (Proc.devRef .tc main_arg10))) (W7 m ρ c (Proc.devRef .tc main_arg11)) _ (W7 m ρ c (Proc.devRef .tc main_arg13)) _) = _
  rw [W7_v45 m ρ c, W7_v35 m ρ c, W7_arg8 m ρ c, W7_arg10 m ρ c, W7_arg11 m ρ c, W7_arg13 m ρ c]
  rfl

end Cert.KernelIdeal.Walk

end
-- ==== Proof.RefAppend.lean ====
/-
  The fold of a line of host operations over a concatenation.
-/
import proofs.«178627_j91216515432812_2_alg».proof.Proof.Spec
import proofs.«178627_j91216515432812_2_alg».proof.Proof.RefRunP

set_option maxRecDepth 16384

noncomputable section

namespace Cert.ReferenceIdeal.Walk

open Cert.ReferenceIdeal Cert.ReferenceIdeal.ValueP Cert.ReferenceIdeal.Gen Cert.Sage
open Idealize.ShloMosaic Idealize.ShloMosaic.TcCoe Idealize.SL.Sem Idealize.ShloMosaic.StableHlo

/-- The fold over a concatenation is the fold over the second part of the fold over the first. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => exact ih (op.result W)

end Cert.ReferenceIdeal.Walk

end
-- ==== Proof.RefLayers.lean ====
/-
  The reference's three layers, each evaluated over ANY contents W of the buffers.

  A layer is 39 or 35 operations of the line: a stretch that gathers the node table's rows at the sources and adds
  them up at the destinations, counts the in-degrees and states the constant one; the outlined clip (three
  operations); nine operations of the dense step (the division by the clipped degrees, two matrix products, the
  bias); the outlined relu (three operations).  Each piece is evaluated with the pieces before it left as W's
  entries, so no evaluated term is larger than one piece; the pieces are joined by the fold's law for a
  concatenation.  The layer's output table is then the specification's layer of the table, the edge rows and the
  weights as W holds them (`L1_out`, `L2_out`, `L3_out`).
-/
import proofs.«178627_j91216515432812_2_alg».proof.Proof.Spec
import proofs.«178627_j91216515432812_2_alg».proof.Proof.SpecPieces
import proofs.«178627_j91216515432812_2_alg».proof.Proof.RefRunP
import proofs.«178627_j91216515432812_2_alg».proof.Proof.RefAppend

set_option maxRecDepth 16384

noncomputable section

namespace Cert.ReferenceIdeal.Walk

open Cert.ReferenceIdeal Cert.ReferenceIdeal.ValueP Cert.ReferenceIdeal.Gen Cert.Sage
open Idealize.ShloMosaic Idealize.ShloMosaic.TcCoe Idealize.SL.Sem Idealize.ShloMosaic.StableHlo

/-! ## Layer 1 -/

/-- The neighbour sums, from the stretch before the clip. -/
theorem L1_agg (W : Valuation τ sig (Elt Ideal)) :
    after (((ops (F := Ideal)).drop 0).take 24) W (Proc.devRef .tc main_v13) = agg (srcOf (W (Proc.devRef .tc main_arg1))) (dstOf (W (Proc.devRef .tc main_arg1))) (W (Proc.devRef .tc main_arg0)) := by
  simp only [ops, List.drop_succ_cons, List.drop_zero, List.take_succ_cons, List.take_zero]
  after_results_simp <;> rfl

/-- The in-degrees. -/
theorem L1_deg (W : Valuation τ sig (Elt Ideal)) :
    after (((ops (F := Ideal)).drop 0).take 24) W (Proc.devRef .tc main_v17) = deg (dstOf (W (Proc.devRef .tc main_arg1))) := by
  simp only [ops, List.drop_succ_cons, List.drop_zero, List.take_succ_cons, List.take_zero]
  after_results_simp <;> rfl

/-- The clip's lower bound, the constant one. -/
theorem L1_cst (W : Valuation τ sig (Elt Ideal)) :
    after (((ops (F := Ideal)).drop 0).take 24) W (Proc.devRef .tc main_cst_3) = (constant (F := Ideal) S_ .f32 0x3F800000#32 : Arr Ideal S_ .f32) := by
  simp only [ops, List.drop_succ_cons, List.drop_zero, List.take_succ_cons, List.take_zero]
  after_results_simp <;> rfl

theorem L1_A_arg0 (W : Valuation τ sig (Elt Ideal)) :
    after (((ops (F := Ideal)).drop 0).take 24) W (Proc.devRef .tc main_arg0) = W (Proc.devRef .tc main_arg0) := by
  simp only [ops, List.drop_succ_cons, List.drop_zero, List.take_succ_cons, List.take_zero]
  after_results_simp <;> rfl

theorem L1_A_arg2 (W : Valuation τ sig (Elt Ideal)) :
    after (((ops (F := Ideal)).drop 0).take 24) W (Proc.devRef .tc main_arg2) = W (Proc.devRef .tc main_arg2) := by
  simp only [ops, List.drop_succ_cons, List.drop_zero, List.take_succ_cons, List.take_zero]
  after_results_simp <;> rfl

theorem L1_A_arg3 (W : Valuation τ sig (Elt Ideal)) :
    after (((ops (F := Ideal)).drop 0).take 24) W (Proc.devRef .tc main_arg3) = W (Proc.devRef .tc main_arg3) := by
  simp only [ops, List.drop_succ_cons, List.drop_zero, List.take_succ_cons, List.take_zero]
  after_results_simp <;> rfl

theorem L1_A_arg4 (W : Valuation τ sig (Elt Ideal)) :
    after (((ops (F := Ideal)).drop 0).take 24) W (Proc.devRef .tc main_arg4) = W (Proc.devRef .tc main_arg4) := by
  simp only [ops, List.drop_succ_cons, List.drop_zero, List.take_succ_cons, List.take_zero]
  after_results_simp <;> rfl

/-- The outlined clip. -/
theorem L1_clip (W : Valuation τ sig (Elt Ideal)) :
    after (((ops (F := Ideal)).drop 24).take 3) W (Proc.devRef .tc main_v18) = clipR (W (Proc.devRef .tc main_cst_3)) (W (Proc.devRef .tc main_v17)) := by
  simp only [ops, List.drop_succ_cons, List.drop_zero, List.take_succ_cons, List.take_zero]
  after_results_simp <;> rfl

theorem L1_C_v13 (W : Valuation τ sig (Elt Ideal)) :
    after (((ops (F := Ideal)).drop 24).take 3) W (Proc.devRef .tc main_v13) = W (Proc.devRef .tc main_v13) := by
  simp only [ops, List.drop_succ_cons, List.drop_zero, List.take_succ_cons, List.take_zero]
  after_results_simp <;> rfl

theorem L1_C_arg0 (W : Valuation τ sig (Elt Ideal)) :
    after (((ops (F := Ideal)).drop 24).take 3) W (Proc.devRef .tc main_arg0) = W (Proc.devRef .tc main_arg0) := by
  simp only [ops, List.drop_succ_cons, List.drop_zero, List.take_succ_cons, List.take_zero]
  after_results_simp <;> rfl

theorem L1_C_arg2 (W : Valuation τ sig (Elt Ideal)) :
    after (((ops (F := Ideal)).drop 24).take 3) W (Proc.devRef .tc main_arg2) = W (Proc.devRef .tc main_arg2) := by
  simp only [ops, List.drop_succ_cons, List.drop_zero, List.take_succ_cons, List.take_zero]
  after_results_simp <;> rfl

theorem L1_C_arg3 (W : Valuation τ sig (Elt Ideal)) :
    after (((ops (F := Ideal)).drop 24).take 3) W (Proc.devRef .tc main_arg3) = W (Proc.devRef .tc main_arg3) := by
  simp only [ops, List.drop_succ_cons, List.drop_zero, List.take_succ_cons, List.take_zero]
  after_results_simp <;> rfl

theorem L1_C_arg4 (W : Valuation τ sig (Elt Ideal)) :
    after (((ops (F := Ideal)).drop 24).take 3) W (Proc.devRef .tc main_arg4) = W (Proc.devRef .tc main_arg4) := by
  simp only [ops, List.drop_succ_cons, List.drop_zero, List.take_succ_cons, List.take_zero]
  after_results_simp <;> rfl

/-- The dense step before the relu. -/
theorem L1_pre (W : Valuation τ sig (Elt Ideal)) :
    after (((ops (F := Ideal)).drop 27).take 9) W (Proc.devRef .tc main_v27) = denseR (W (Proc.devRef .tc main_v13)) (W (Proc.devRef .tc main_arg0)) (W (Proc.devRef .tc main_v18)) (W (Proc.devRef .tc main_arg2)) (W (Proc.devRef .tc main_arg3)) (W (Proc.devRef .tc main_arg4)) := by
  simp only [ops, List.drop_succ_cons, List.drop_zero, List.take_succ_cons, List.take_zero]
  after_results_simp <;> rfl

/-- The outlined relu. -/
theorem L1_relu (W : Valuation τ sig (Elt Ideal)) :
    after (((ops (F := Ideal)).drop 36).take 3) W (Proc.devRef .tc main_v28) = reluR (W (Proc.devRef .tc main_v27)) := by
  simp only [ops, List.drop_succ_cons, List.drop_zero, List.take_succ_cons, List.take_zero]
  after_results_simp <;> rfl

/-- Layer 1's operations are the stretch, the clip, the dense step and the relu, in order. -/
theorem L1_cut : (((ops (F := Ideal)).drop 0).take 39) = (((ops (F := Ideal)).drop 0).take 24) ++ ((((ops (F := Ideal)).drop 24).take 3) ++ ((((ops (F := Ideal)).drop 27).take 9) ++ (((ops (F := Ideal)).drop 36).take 3))) := by
  simp only [ops, List.drop_succ_cons, List.drop_zero, List.take_succ_cons, List.take_zero, List.cons_append, List.nil_append]

/-- Layer 1: its output table is the specification's layer of the tables it finds. -/
theorem L1_out (W : Valuation τ sig (Elt Ideal)) :
    after (((ops (F := Ideal)).drop 0).take 39) W (Proc.devRef .tc main_v28) = sageR (srcOf (W (Proc.devRef .tc main_arg1))) (dstOf (W (Proc.devRef .tc main_arg1))) (W (Proc.devRef .tc main_arg0)) (W (Proc.devRef .tc main_arg2)) (W (Proc.devRef .tc main_arg3)) (W (Proc.devRef .tc main_arg4)) := by
  rw [L1_cut, after_append, after_append, after_append, L1_relu, L1_pre, L1_clip,
    L1_C_v13, L1_C_arg0, L1_C_arg2, L1_C_arg3, L1_C_arg4,
    L1_agg, L1_deg, L1_cst, L1_A_arg0, L1_A_arg2, L1_A_arg3, L1_A_arg4]
  exact sageR_pieces _ _ _ _ _ _

/-! ## Layer 2 -/

/-- The neighbour sums, from the stretch before the clip. -/
theorem L2_agg (W : Valuation τ sig (Elt Ideal)) :
    after (((ops (F := Ideal)).drop 39).take 20) W (Proc.devRef .tc main_v38) = agg (W (Proc.devRef .tc main_v1)) (W (Proc.devRef .tc main_v3)) (W (Proc.devRef .tc main_v28)) := by
  simp only [ops, List.drop_succ_cons, List.drop_zero, List.take_succ_cons, List.take_zero]
  after_results_simp <;> rfl

/-- The in-degrees. -/
theorem L2_deg (W : Valuation τ sig (Elt Ideal)) :
    after (((ops (F := Ideal)).drop 39).take 20) W (Proc.devRef .tc main_v42) = deg (W (Proc.devRef .tc main_v3)) := by
  simp only [ops, List.drop_succ_cons, List.drop_zero, List.take_succ_cons, List.take_zero]
  after_results_simp <;> rfl

/-- The clip's lower bound, the constant one. -/
theorem L2_cst (W : Valuation τ sig (Elt Ideal)) :
    after (((ops (F := Ideal)).drop 39).take 20) W (Proc.devRef .tc main_cst_9) = (constant (F := Ideal) S_ .f32 0x3F800000#32 : Arr Ideal S_ .f32) := by
  simp only [ops, List.drop_succ_cons, List.drop_zero, List.take_succ_cons, List.take_zero]
  after_results_simp <;> rfl

theorem L2_A_v28 (W : Valuation τ sig (Elt Ideal)) :
    after (((ops (F := Ideal)).drop 39).take 20) W (Proc.devRef .tc main_v28) = W (Proc.devRef .tc main_v28) := by
  simp only [ops, List.drop_succ_cons, List.drop_zero, List.take_succ_cons, List.take_zero]
  after_results_simp <;> rfl

theorem L2_A_arg5 (W : Valuation τ sig (Elt Ideal)) :
    after (((ops (F := Ideal)).drop 39).take 20) W (Proc.devRef .tc main_arg5) = W (Proc.devRef .tc main_arg5) := by
  simp only [ops, List.drop_succ_cons, List.drop_zero, List.take_succ_cons, List.take_zero]
  after_results_simp <;> rfl

theorem L2_A_arg6 (W : Valuation τ sig (Elt Ideal)) :
    after (((ops (F := Ideal)).drop 39).take 20) W (Proc.devRef .tc main_arg6) = W (Proc.devRef .tc main_arg6) := by
  simp only [ops, List.drop_succ_cons, List.drop_zero, List.take_succ_cons, List.take_zero]
  after_results_simp <;> rfl

theorem L2_A_arg7 (W : Valuation τ sig (Elt Ideal)) :
    after (((ops (F := Ideal)).drop 39).take 20) W (Proc.devRef .tc main_arg7) = W (Proc.devRef .tc main_arg7) := by
  simp only [ops, List.drop_succ_cons, List.drop_zero, List.take_succ_cons, List.take_zero]
  after_results_simp <;> rfl

/-- The outlined clip. -/
theorem L2_clip (W : Valuation τ sig (Elt Ideal)) :
    after (((ops (F := Ideal)).drop 59).take 3) W (Proc.devRef .tc main_v43) = clipR (W (Proc.devRef .tc main_cst_9)) (W (Proc.devRef .tc main_v42)) := by
  simp only [ops, List.drop_succ_cons, List.drop_zero, List.take_succ_cons, List.take_zero]
  after_results_simp <;> rfl

theorem L2_C_v38 (W : Valuation τ sig (Elt Ideal)) :
    after (((ops (F := Ideal)).drop 59).take 3) W (Proc.devRef .tc main_v38) = W (Proc.devRef .tc main_v38) := by
  simp only [ops, List.drop_succ_cons, List.drop_zero, List.take_succ_cons, List.take_zero]
  after_results_simp <;> rfl

theorem L2_C_v28 (W : Valuation τ sig (Elt Ideal)) :
    after (((ops (F := Ideal)).drop 59).take 3) W (Proc.devRef .tc main_v28) = W (Proc.devRef .tc main_v28) := by
  simp only [ops, List.drop_succ_cons, List.drop_zero, List.take_succ_cons, List.take_zero]
  after_results_simp <;> rfl

theorem L2_C_arg5 (W : Valuation τ sig (Elt Ideal)) :
    after (((ops (F := Ideal)).drop 59).take 3) W (Proc.devRef .tc main_arg5) = W (Proc.devRef .tc main_arg5) := by
  simp only [ops, List.drop_succ_cons, List.drop_zero, List.take_succ_cons, List.take_zero]
  after_results_simp <;> rfl

theorem L2_C_arg6 (W : Valuation τ sig (Elt Ideal)) :
    after (((ops (F := Ideal)).drop 59).take 3) W (Proc.devRef .tc main_arg6) = W (Proc.devRef .tc main_arg6) := by
  simp only [ops, List.drop_succ_cons, List.drop_zero, List.take_succ_cons, List.take_zero]
  after_results_simp <;> rfl

theorem L2_C_arg7 (W : Valuation τ sig (Elt Ideal)) :
    after (((ops (F := Ideal)).drop 59).take 3) W (Proc.devRef .tc main_arg7) = W (Proc.devRef .tc main_arg7) := by
  simp only [ops, List.drop_succ_cons, List.drop_zero, List.take_succ_cons, List.take_zero]
  after_results_simp <;> rfl

/-- The dense step before the relu. -/
theorem L2_pre (W : Valuation τ sig (Elt Ideal)) :
    after (((ops (F := Ideal)).drop 62).take 9) W (Proc.devRef .tc main_v52) = denseR (W (Proc.devRef .tc main_v38)) (W (Proc.devRef .tc main_v28)) (W (Proc.devRef .tc main_v43)) (W (Proc.devRef .tc main_arg5)) (W (Proc.devRef .tc main_arg6)) (W (Proc.devRef .tc main_arg7)) := by
  simp only [ops, List.drop_succ_cons, List.drop_zero, List.take_succ_cons, List.take_zero]
  after_results_simp <;> rfl

/-- The outlined relu. -/
theorem L2_relu (W : Valuation τ sig (Elt Ideal)) :
    after (((ops (F := Ideal)).drop 71).take 3) W (Proc.devRef .tc main_v53) = reluR (W (Proc.devRef .tc main_v52)) := by
  simp only [ops, List.drop_succ_cons, List.drop_zero, List.take_succ_cons, List.take_zero]
  after_results_simp <;> rfl

/-- Layer 2's operations are the stretch, the clip, the dense step and the relu, in order. -/
theorem L2_cut : (((ops (F := Ideal)).drop 39).take 35) = (((ops (F := Ideal)).drop 39).take 20) ++ ((((ops (F := Ideal)).drop 59).take 3) ++ ((((ops (F := Ideal)).drop 62).take 9) ++ (((ops (F := Ideal)).drop 71).take 3))) := by
  simp only [ops, List.drop_succ_cons, List.drop_zero, List.take_succ_cons, List.take_zero, List.cons_append, List.nil_append]

/-- Layer 2: its output table is the specification's layer of the tables it finds. -/
theorem L2_out (W : Valuation τ sig (Elt Ideal)) :
    after (((ops (F := Ideal)).drop 39).take 35) W (Proc.devRef .tc main_v53) = sageR (W (Proc.devRef .tc main_v1)) (W (Proc.devRef .tc main_v3)) (W (Proc.devRef .tc main_v28)) (W (Proc.devRef .tc main_arg5)) (W (Proc.devRef .tc main_arg6)) (W (Proc.devRef .tc main_arg7)) := by
  rw [L2_cut, after_append, after_append, after_append, L2_relu, L2_pre, L2_clip,
    L2_C_v38, L2_C_v28, L2_C_arg5, L2_C_arg6, L2_C_arg7,
    L2_agg, L2_deg, L2_cst, L2_A_v28, L2_A_arg5, L2_A_arg6, L2_A_arg7]
  exact sageR_pieces _ _ _ _ _ _

/-! ## Layer 3 -/

/-- The neighbour sums, from the stretch before the clip. -/
theorem L3_agg (W : Valuation τ sig (Elt Ideal)) :
    after (((ops (F := Ideal)).drop 74).take 20) W (Proc.devRef .tc main_v63) = agg (W (Proc.devRef .tc main_v1)) (W (Proc.devRef .tc main_v3)) (W (Proc.devRef .tc main_v53)) := by
  simp only [ops, List.drop_succ_cons, List.drop_zero, List.take_succ_cons, List.take_zero]
  after_results_simp <;> rfl

/-- The in-degrees. -/
theorem L3_deg (W : Valuation τ sig (Elt Ideal)) :
    after (((ops (F := Ideal)).drop 74).take 20) W (Proc.devRef .tc main_v67) = deg (W (Proc.devRef .tc main_v3)) := by
  simp only [ops, List.drop_succ_cons, List.drop_zero, List.take_succ_cons, List.take_zero]
  after_results_simp <;> rfl

/-- The clip's lower bound, the constant one. -/
theorem L3_cst (W : Valuation τ sig (Elt Ideal)) :
    after (((ops (F := Ideal)).drop 74).take 20) W (Proc.devRef .tc main_cst_15) = (constant (F := Ideal) S_ .f32 0x3F800000#32 : Arr Ideal S_ .f32) := by
  simp only [ops, List.drop_succ_cons, List.drop_zero, List.take_succ_cons, List.take_zero]
  after_results_simp <;> rfl

theorem L3_A_v53 (W : Valuation τ sig (Elt Ideal)) :
    after (((ops (F := Ideal)).drop 74).take 20) W (Proc.devRef .tc main_v53) = W (Proc.devRef .tc main_v53) := by
  simp only [ops, List.drop_succ_cons, List.drop_zero, List.take_succ_cons, List.take_zero]
  after_results_simp <;> rfl

theorem L3_A_arg8 (W : Valuation τ sig (Elt Ideal)) :
    after (((ops (F := Ideal)).drop 74).take 20) W (Proc.devRef .tc main_arg8) = W (Proc.devRef .tc main_arg8) := by
  simp only [ops, List.drop_succ_cons, List.drop_zero, List.take_succ_cons, List.take_zero]
  after_results_simp <;> rfl

theorem L3_A_arg9 (W : Valuation τ sig (Elt Ideal)) :
    after (((ops (F := Ideal)).drop 74).take 20) W (Proc.devRef .tc main_arg9) = W (Proc.devRef .tc main_arg9) := by
  simp only [ops, List.drop_succ_cons, List.drop_zero, List.take_succ_cons, List.take_zero]
  after_results_simp <;> rfl

theorem L3_A_arg10 (W : Valuation τ sig (Elt Ideal)) :
    after (((ops (F := Ideal)).drop 74).take 20) W (Proc.devRef .tc main_arg10) = W (Proc.devRef .tc main_arg10) := by
  simp only [ops, List.drop_succ_cons, List.drop_zero, List.take_succ_cons, List.take_zero]
  after_results_simp <;> rfl

/-- The outlined clip. -/
theorem L3_clip (W : Valuation τ sig (Elt Ideal)) :
    after (((ops (F := Ideal)).drop 94).take 3) W (Proc.devRef .tc main_v68) = clipR (W (Proc.devRef .tc main_cst_15)) (W (Proc.devRef .tc main_v67)) := by
  simp only [ops, List.drop_succ_cons, List.drop_zero, List.take_succ_cons, List.take_zero]
  after_results_simp <;> rfl

theorem L3_C_v63 (W : Valuation τ sig (Elt Ideal)) :
    after (((ops (F := Ideal)).drop 94).take 3) W (Proc.devRef .tc main_v63) = W (Proc.devRef .tc main_v63) := by
  simp only [ops, List.drop_succ_cons, List.drop_zero, List.take_succ_cons, List.take_zero]
  after_results_simp <;> rfl

theorem L3_C_v53 (W : Valuation τ sig (Elt Ideal)) :
    after (((ops (F := Ideal)).drop 94).take 3) W (Proc.devRef .tc main_v53) = W (Proc.devRef .tc main_v53) := by
  simp only [ops, List.drop_succ_cons, List.drop_zero, List.take_succ_cons, List.take_zero]
  after_results_simp <;> rfl

theorem L3_C_arg8 (W : Valuation τ sig (Elt Ideal)) :
    after (((ops (F := Ideal)).drop 94).take 3) W (Proc.devRef .tc main_arg8) = W (Proc.devRef .tc main_arg8) := by
  simp only [ops, List.drop_succ_cons, List.drop_zero, List.take_succ_cons, List.take_zero]
  after_results_simp <;> rfl

theorem L3_C_arg9 (W : Valuation τ sig (Elt Ideal)) :
    after (((ops (F := Ideal)).drop 94).take 3) W (Proc.devRef .tc main_arg9) = W (Proc.devRef .tc main_arg9) := by
  simp only [ops, List.drop_succ_cons, List.drop_zero, List.take_succ_cons, List.take_zero]
  after_results_simp <;> rfl

theorem L3_C_arg10 (W : Valuation τ sig (Elt Ideal)) :
    after (((ops (F := Ideal)).drop 94).take 3) W (Proc.devRef .tc main_arg10) = W (Proc.devRef .tc main_arg10) := by
  simp only [ops, List.drop_succ_cons, List.drop_zero, List.take_succ_cons, List.take_zero]
  after_results_simp <;> rfl

/-- The dense step before the relu. -/
theorem L3_pre (W : Valuation τ sig (Elt Ideal)) :
    after (((ops (F := Ideal)).drop 97).take 9) W (Proc.devRef .tc main_v77) = denseR (W (Proc.devRef .tc main_v63)) (W (Proc.devRef .tc main_v53)) (W (Proc.devRef .tc main_v68)) (W (Proc.devRef .tc main_arg8)) (W (Proc.devRef .tc main_arg9)) (W (Proc.devRef .tc main_arg10)) := by
  simp only [ops, List.drop_succ_cons, List.drop_zero, List.take_succ_cons, List.take_zero]
  after_results_simp <;> rfl

/-- The outlined relu. -/
theorem L3_relu (W : Valuation τ sig (Elt Ideal)) :
    after (((ops (F := Ideal)).drop 106).take 3) W (Proc.devRef .tc main_v78) = reluR (W (Proc.devRef .tc main_v77)) := by
  simp only [ops, List.drop_succ_cons, List.drop_zero, List.take_succ_cons, List.take_zero]
  after_results_simp <;> rfl

/-- Layer 3's operations are the stretch, the clip, the dense step and the relu, in order. -/
theorem L3_cut : (((ops (F := Ideal)).drop 74).take 35) = (((ops (F := Ideal)).drop 74).take 20) ++ ((((ops (F := Ideal)).drop 94).take 3) ++ ((((ops (F := Ideal)).drop 97).take 9) ++ (((ops (F := Ideal)).drop 106).take 3))) := by
  simp only [ops, List.drop_succ_cons, List.drop_zero, List.take_succ_cons, List.take_zero, List.cons_append, List.nil_append]

/-- Layer 3: its output table is the specification's layer of the tables it finds. -/
theorem L3_out (W : Valuation τ sig (Elt Ideal)) :
    after (((ops (F := Ideal)).drop 74).take 35) W (Proc.devRef .tc main_v78) = sageR (W (Proc.devRef .tc main_v1)) (W (Proc.devRef .tc main_v3)) (W (Proc.devRef .tc main_v53)) (W (Proc.devRef .tc main_arg8)) (W (Proc.devRef .tc main_arg9)) (W (Proc.devRef .tc main_arg10)) := by
  rw [L3_cut, after_append, after_append, after_append, L3_relu, L3_pre, L3_clip,
    L3_C_v63, L3_C_v53, L3_C_arg8, L3_C_arg9, L3_C_arg10,
    L3_agg, L3_deg, L3_cst, L3_A_v53, L3_A_arg8, L3_A_arg9, L3_A_arg10]
  exact sageR_pieces _ _ _ _ _ _

end Cert.ReferenceIdeal.Walk

end
-- ==== Proof.RefHead.lean ====
/-
  The reference's classifier head, evaluated over ANY contents W of the buffers.

  The last 26 operations of the line: the hidden layer (a matrix product and a bias), the outlined relu, the logits
  (a product and a bias), and the outlined log-softmax, which is cut here into five pieces: the rows' maxima, their
  clip at minus infinity, the shifted logits, the rows' sums of exponentials, and the final difference.  Each piece is
  evaluated with the earlier pieces left as W's entries; joined by the fold's law for a concatenation they give the
  specification's log-softmax of logits (`head_out`).
-/
import proofs.«178627_j91216515432812_2_alg».proof.Proof.Spec
import proofs.«178627_j91216515432812_2_alg».proof.Proof.SpecPieces
import proofs.«178627_j91216515432812_2_alg».proof.Proof.RefRunP
import proofs.«178627_j91216515432812_2_alg».proof.Proof.RefAppend

set_option maxRecDepth 16384

noncomputable section

namespace Cert.ReferenceIdeal.Walk

open Cert.ReferenceIdeal Cert.ReferenceIdeal.ValueP Cert.ReferenceIdeal.Gen Cert.Sage
open Idealize.ShloMosaic Idealize.ShloMosaic.TcCoe Idealize.SL.Sem Idealize.ShloMosaic.StableHlo

/-- The hidden layer before its relu. -/
theorem H_hid_pre (W : Valuation τ sig (Elt Ideal)) :
    after (((ops (F := Ideal)).drop 109).take 4) W (Proc.devRef .tc main_v82) = hidPreR (W (Proc.devRef .tc main_v78)) (W (Proc.devRef .tc main_arg11)) (W (Proc.devRef .tc main_arg12)) := by
  simp only [ops, List.drop_succ_cons, List.drop_zero, List.take_succ_cons, List.take_zero]
  after_results_simp <;> rfl

theorem H_D1_arg13 (W : Valuation τ sig (Elt Ideal)) :
    after (((ops (F := Ideal)).drop 109).take 4) W (Proc.devRef .tc main_arg13) = W (Proc.devRef .tc main_arg13) := by
  simp only [ops, List.drop_succ_cons, List.drop_zero, List.take_succ_cons, List.take_zero]
  after_results_simp <;> rfl

theorem H_D1_arg14 (W : Valuation τ sig (Elt Ideal)) :
    after (((ops (F := Ideal)).drop 109).take 4) W (Proc.devRef .tc main_arg14) = W (Proc.devRef .tc main_arg14) := by
  simp only [ops, List.drop_succ_cons, List.drop_zero, List.take_succ_cons, List.take_zero]
  after_results_simp <;> rfl

/-- The outlined relu. -/
theorem H_hid (W : Valuation τ sig (Elt Ideal)) :
    after (((ops (F := Ideal)).drop 113).take 3) W (Proc.devRef .tc main_v83) = reluR (W (Proc.devRef .tc main_v82)) := by
  simp only [ops, List.drop_succ_cons, List.drop_zero, List.take_succ_cons, List.take_zero]
  after_results_simp <;> rfl

theorem H_RH_arg13 (W : Valuation τ sig (Elt Ideal)) :
    after (((ops (F := Ideal)).drop 113).take 3) W (Proc.devRef .tc main_arg13) = W (Proc.devRef .tc main_arg13) := by
  simp only [ops, List.drop_succ_cons, List.drop_zero, List.take_succ_cons, List.take_zero]
  after_results_simp <;> rfl

theorem H_RH_arg14 (W : Valuation τ sig (Elt Ideal)) :
    after (((ops (F := Ideal)).drop 113).take 3) W (Proc.devRef .tc main_arg14) = W (Proc.devRef .tc main_arg14) := by
  simp only [ops, List.drop_succ_cons, List.drop_zero, List.take_succ_cons, List.take_zero]
  after_results_simp <;> rfl

/-- The logits. -/
theorem H_logits (W : Valuation τ sig (Elt Ideal)) :
    after (((ops (F := Ideal)).drop 116).take 4) W (Proc.devRef .tc main_v87) = logitsOfR (W (Proc.devRef .tc main_v83)) (W (Proc.devRef .tc main_arg13)) (W (Proc.devRef .tc main_arg14)) := by
  simp only [ops, List.drop_succ_cons, List.drop_zero, List.take_succ_cons, List.take_zero]
  after_results_simp <;> rfl

/-- The log-softmax, first piece: the rows' maxima from minus infinity.  The outlined function's values are carried
    between its typed buffers by a transport that is the identity; it is removed here by rewriting, so that the two
    reductions are compared as they stand. -/
theorem H_max (W : Valuation τ sig (Elt Ideal)) :
    after (((ops (F := Ideal)).drop 120).take 2) W (Proc.devRef .tc main_call7_v0) = maxR (W (Proc.devRef .tc main_v87)) := by
  simp only [ops, List.drop_succ_cons, List.drop_zero, List.take_succ_cons, List.take_zero]
  after_results_simp
  have k0 : ∀ R : Arr Ideal S50000 .f32,
      (TRef.of (sig := sig) (T := ⟨S50000, .f32⟩) main_call7_v0).toBuf (Val := Elt Ideal) R = R := fun _ => rfl
  have k1 : ∀ X : Arr Ideal S50000x40 .f32,
      (TRef.of (sig := sig) (T := ⟨S50000x40, .f32⟩) main_v87).ofBuf (Val := Elt Ideal) X = X := fun _ => rfl
  have k2 : ∀ X : Arr Ideal S_ .f32,
      (TRef.of (sig := sig) (T := ⟨S_, .f32⟩) main_call7_cst).ofBuf (Val := Elt Ideal)
        ((TRef.of (sig := sig) (T := ⟨S_, .f32⟩) main_call7_cst).toBuf (Val := Elt Ideal) X) = X := fun _ => rfl
  rw [k0, k1, k2]
  rfl

theorem H_K1_v87 (W : Valuation τ sig (Elt Ideal)) :
    after (((ops (F := Ideal)).drop 120).take 2) W (Proc.devRef .tc main_v87) = W (Proc.devRef .tc main_v87) := by
  simp only [ops, List.drop_succ_cons, List.drop_zero, List.take_succ_cons, List.take_zero]
  after_results_simp <;> rfl

/-- Second piece: the maxima clipped below at minus infinity. -/
theorem H_maxc (W : Valuation τ sig (Elt Ideal)) :
    after (((ops (F := Ideal)).drop 122).take 3) W (Proc.devRef .tc main_call7_v2) = maxcR (W (Proc.devRef .tc main_call7_v0)) := by
  simp only [ops, List.drop_succ_cons, List.drop_zero, List.take_succ_cons, List.take_zero]
  after_results_simp <;> rfl

theorem H_K2_v87 (W : Valuation τ sig (Elt Ideal)) :
    after (((ops (F := Ideal)).drop 122).take 3) W (Proc.devRef .tc main_v87) = W (Proc.devRef .tc main_v87) := by
  simp only [ops, List.drop_succ_cons, List.drop_zero, List.take_succ_cons, List.take_zero]
  after_results_simp <;> rfl

/-- Third piece: the logits less their row's maximum. -/
theorem H_shift (W : Valuation τ sig (Elt Ideal)) :
    after (((ops (F := Ideal)).drop 125).take 3) W (Proc.devRef .tc main_call7_v5) = shiftR (W (Proc.devRef .tc main_v87)) (W (Proc.devRef .tc main_call7_v2)) := by
  simp only [ops, List.drop_succ_cons, List.drop_zero, List.take_succ_cons, List.take_zero]
  after_results_simp <;> rfl

/-- Fourth piece: the rows' sums of exponentials. -/
theorem H_sum (W : Valuation τ sig (Elt Ideal)) :
    after (((ops (F := Ideal)).drop 128).take 3) W (Proc.devRef .tc main_call7_v7) = sumR (W (Proc.devRef .tc main_call7_v5)) := by
  simp only [ops, List.drop_succ_cons, List.drop_zero, List.take_succ_cons, List.take_zero]
  after_results_simp <;> rfl

theorem H_K4_v5 (W : Valuation τ sig (Elt Ideal)) :
    after (((ops (F := Ideal)).drop 128).take 3) W (Proc.devRef .tc main_call7_v5) = W (Proc.devRef .tc main_call7_v5) := by
  simp only [ops, List.drop_succ_cons, List.drop_zero, List.take_succ_cons, List.take_zero]
  after_results_simp <;> rfl

/-- Fifth piece: less the logarithm of the row's sum. -/
theorem H_out (W : Valuation τ sig (Elt Ideal)) :
    after (((ops (F := Ideal)).drop 131).take 4) W (Proc.devRef .tc main_v88) = outOfR (W (Proc.devRef .tc main_call7_v5)) (W (Proc.devRef .tc main_call7_v7)) := by
  simp only [ops, List.drop_succ_cons, List.drop_zero, List.take_succ_cons, List.take_zero]
  after_results_simp <;> rfl

/-- The head's operations are those eight pieces, in order. -/
theorem H_cut : (((ops (F := Ideal)).drop 109).take 26) = (((ops (F := Ideal)).drop 109).take 4) ++ ((((ops (F := Ideal)).drop 113).take 3) ++ ((((ops (F := Ideal)).drop 116).take 4) ++ ((((ops (F := Ideal)).drop 120).take 2) ++ ((((ops (F := Ideal)).drop 122).take 3) ++ ((((ops (F := Ideal)).drop 125).take 3) ++ ((((ops (F := Ideal)).drop 128).take 3) ++ (((ops (F := Ideal)).drop 131).take 4))))))) := by
  simp only [ops, List.drop_succ_cons, List.drop_zero, List.take_succ_cons, List.take_zero, List.cons_append, List.nil_append]

/-- The head: the result buffer is the specification's log-softmax of logits of the third layer's table and the
    classifier's weights as W holds them. -/
theorem head_out (W : Valuation τ sig (Elt Ideal)) :
    after (((ops (F := Ideal)).drop 109).take 26) W (Proc.devRef .tc main_v88)
      = lsmR (logitsR (W (Proc.devRef .tc main_v78)) (W (Proc.devRef .tc main_arg11)) (W (Proc.devRef .tc main_arg12)) (W (Proc.devRef .tc main_arg13)) (W (Proc.devRef .tc main_arg14))) := by
  rw [H_cut, after_append, after_append, after_append, after_append, after_append, after_append, after_append,
    H_out, H_sum, H_K4_v5, H_shift, H_maxc, H_K2_v87, H_max, H_K1_v87, H_logits, H_hid, H_RH_arg13, H_RH_arg14,
    H_hid_pre, H_D1_arg13, H_D1_arg14, lsmR_pieces, logitsR_pieces]

end Cert.ReferenceIdeal.Walk

end
-- ==== Proof.RefValue.lean ====
/-
  The reference's value: the three layers and the head joined.

  The line of 135 operations is the first layer's 39, the second's and the third's 35 each, and the head's 26.  Between
  the parts only a few buffers are carried: the layer's output table, the two rows of the edge list (computed in the
  first part, read by the next two), and the weights not yet used, which no operation writes.  With the parts'
  values from the layers' and the head's modules, the result buffer holds the specification's output of the
  arguments (`result_eq`).  The arguments themselves come through the whole line unchanged (`kept_arg0` …).
-/
import proofs.«178627_j91216515432812_2_alg».proof.Proof.Spec
import proofs.«178627_j91216515432812_2_alg».proof.Proof.SpecPieces
import proofs.«178627_j91216515432812_2_alg».proof.Proof.RefRunP
import proofs.«178627_j91216515432812_2_alg».proof.Proof.RefAppend
import proofs.«178627_j91216515432812_2_alg».proof.Proof.RefLayers
import proofs.«178627_j91216515432812_2_alg».proof.Proof.RefHead

set_option maxRecDepth 16384

noncomputable section

namespace Cert.ReferenceIdeal.Walk

open Cert.ReferenceIdeal Cert.ReferenceIdeal.ValueP Cert.ReferenceIdeal.Gen Cert.Sage
open Idealize.ShloMosaic Idealize.ShloMosaic.TcCoe Idealize.SL.Sem Idealize.ShloMosaic.StableHlo

/-- The sources, after the first layer. -/
theorem S1_src (W : Valuation τ sig (Elt Ideal)) :
    after (((ops (F := Ideal)).drop 0).take 39) W (Proc.devRef .tc main_v1) = srcOf (W (Proc.devRef .tc main_arg1)) := by
  simp only [ops, List.drop_succ_cons, List.drop_zero, List.take_succ_cons, List.take_zero]
  after_results_simp <;> rfl

/-- The destinations, after the first layer. -/
theorem S1_dst (W : Valuation τ sig (Elt Ideal)) :
    after (((ops (F := Ideal)).drop 0).take 39) W (Proc.devRef .tc main_v3) = dstOf (W (Proc.devRef .tc main_arg1)) := by
  simp only [ops, List.drop_succ_cons, List.drop_zero, List.take_succ_cons, List.take_zero]
  after_results_simp <;> rfl

theorem S1_arg5 (W : Valuation τ sig (Elt Ideal)) :
    after (((ops (F := Ideal)).drop 0).take 39) W (Proc.devRef .tc main_arg5) = W (Proc.devRef .tc main_arg5) := by
  simp only [ops, List.drop_succ_cons, List.drop_zero, List.take_succ_cons, List.take_zero]
  after_results_simp <;> rfl

theorem S1_arg6 (W : Valuation τ sig (Elt Ideal)) :
    after (((ops (F := Ideal)).drop 0).take 39) W (Proc.devRef .tc main_arg6) = W (Proc.devRef .tc main_arg6) := by
  simp only [ops, List.drop_succ_cons, List.drop_zero, List.take_succ_cons, List.take_zero]
  after_results_simp <;> rfl

theorem S1_arg7 (W : Valuation τ sig (Elt Ideal)) :
    after (((ops (F := Ideal)).drop 0).take 39) W (Proc.devRef .tc main_arg7) = W (Proc.devRef .tc main_arg7) := by
  simp only [ops, List.drop_succ_cons, List.drop_zero, List.take_succ_cons, List.take_zero]
  after_results_simp <;> rfl

theorem S1_arg8 (W : Valuation τ sig (Elt Ideal)) :
    after (((ops (F := Ideal)).drop 0).take 39) W (Proc.devRef .tc main_arg8) = W (Proc.devRef .tc main_arg8) := by
  simp only [ops, List.drop_succ_cons, List.drop_zero, List.take_succ_cons, List.take_zero]
  after_results_simp <;> rfl

theorem S1_arg9 (W : Valuation τ sig (Elt Ideal)) :
    after (((ops (F := Ideal)).drop 0).take 39) W (Proc.devRef .tc main_arg9) = W (Proc.devRef .tc main_arg9) := by
  simp only [ops, List.drop_succ_cons, List.drop_zero, List.take_succ_cons, List.take_zero]
  after_results_simp <;> rfl

theorem S1_arg10 (W : Valuation τ sig (Elt Ideal)) :
    after (((ops (F := Ideal)).drop 0).take 39) W (Proc.devRef .tc main_arg10) = W (Proc.devRef .tc main_arg10) := by
  simp only [ops, List.drop_succ_cons, List.drop_zero, List.take_succ_cons, List.take_zero]
  after_results_simp <;> rfl

theorem S1_arg11 (W : Valuation τ sig (Elt Ideal)) :
    after (((ops (F := Ideal)).drop 0).take 39) W (Proc.devRef .tc main_arg11) = W (Proc.devRef .tc main_arg11) := by
  simp only [ops, List.drop_succ_cons, List.drop_zero, List.take_succ_cons, List.take_zero]
  after_results_simp <;> rfl

theorem S1_arg12 (W : Valuation τ sig (Elt Ideal)) :
    after (((ops (F := Ideal)).drop 0).take 39) W (Proc.devRef .tc main_arg12) = W (Proc.devRef .tc main_arg12) := by
  simp only [ops, List.drop_succ_cons, List.drop_zero, List.take_succ_cons, List.take_zero]
  after_results_simp <;> rfl

theorem S1_arg13 (W : Valuation τ sig (Elt Ideal)) :
    after (((ops (F := Ideal)).drop 0).take 39) W (Proc.devRef .tc main_arg13) = W (Proc.devRef .tc main_arg13) := by
  simp only [ops, List.drop_succ_cons, List.drop_zero, List.take_succ_cons, List.take_zero]
  after_results_simp <;> rfl

theorem S1_arg14 (W : Valuation τ sig (Elt Ideal)) :
    after (((ops (F := Ideal)).drop 0).take 39) W (Proc.devRef .tc main_arg14) = W (Proc.devRef .tc main_arg14) := by
  simp only [ops, List.drop_succ_cons, List.drop_zero, List.take_succ_cons, List.take_zero]
  after_results_simp <;> rfl

theorem S2_v1 (W : Valuation τ sig (Elt Ideal)) :
    after (((ops (F := Ideal)).drop 39).take 35) W (Proc.devRef .tc main_v1) = W (Proc.devRef .tc main_v1) := by
  simp only [ops, List.drop_succ_cons, List.drop_zero, List.take_succ_cons, List.take_zero]
  after_results_simp <;> rfl

theorem S2_v3 (W : Valuation τ sig (Elt Ideal)) :
    after (((ops (F := Ideal)).drop 39).take 35) W (Proc.devRef .tc main_v3) = W (Proc.devRef .tc main_v3) := by
  simp only [ops, List.drop_succ_cons, List.drop_zero, List.take_succ_cons, List.take_zero]
  after_results_simp <;> rfl

theorem S2_arg8 (W : Valuation τ sig (Elt Ideal)) :
    after (((ops (F := Ideal)).drop 39).take 35) W (Proc.devRef .tc main_arg8) = W (Proc.devRef .tc main_arg8) := by
  simp only [ops, List.drop_succ_cons, List.drop_zero, List.take_succ_cons, List.take_zero]
  after_results_simp <;> rfl

theorem S2_arg9 (W : Valuation τ sig (Elt Ideal)) :
    after (((ops (F := Ideal)).drop 39).take 35) W (Proc.devRef .tc main_arg9) = W (Proc.devRef .tc main_arg9) := by
  simp only [ops, List.drop_succ_cons, List.drop_zero, List.take_succ_cons, List.take_zero]
  after_results_simp <;> rfl

theorem S2_arg10 (W : Valuation τ sig (Elt Ideal)) :
    after (((ops (F := Ideal)).drop 39).take 35) W (Proc.devRef .tc main_arg10) = W (Proc.devRef .tc main_arg10) := by
  simp only [ops, List.drop_succ_cons, List.drop_zero, List.take_succ_cons, List.take_zero]
  after_results_simp <;> rfl

theorem S2_arg11 (W : Valuation τ sig (Elt Ideal)) :
    after (((ops (F := Ideal)).drop 39).take 35) W (Proc.devRef .tc main_arg11) = W (Proc.devRef .tc main_arg11) := by
  simp only [ops, List.drop_succ_cons, List.drop_zero, List.take_succ_cons, List.take_zero]
  after_results_simp <;> rfl

theorem S2_arg12 (W : Valuation τ sig (Elt Ideal)) :
    after (((ops (F := Ideal)).drop 39).take 35) W (Proc.devRef .tc main_arg12) = W (Proc.devRef .tc main_arg12) := by
  simp only [ops, List.drop_succ_cons, List.drop_zero, List.take_succ_cons, List.take_zero]
  after_results_simp <;> rfl

theorem S2_arg13 (W : Valuation τ sig (Elt Ideal)) :
    after (((ops (F := Ideal)).drop 39).take 35) W (Proc.devRef .tc main_arg13) = W (Proc.devRef .tc main_arg13) := by
  simp only [ops, List.drop_succ_cons, List.drop_zero, List.take_succ_cons, List.take_zero]
  after_results_simp <;> rfl

theorem S2_arg14 (W : Valuation τ sig (Elt Ideal)) :
    after (((ops (F := Ideal)).drop 39).take 35) W (Proc.devRef .tc main_arg14) = W (Proc.devRef .tc main_arg14) := by
  simp only [ops, List.drop_succ_cons, List.drop_zero, List.take_succ_cons, List.take_zero]
  after_results_simp <;> rfl

theorem S3_arg11 (W : Valuation τ sig (Elt Ideal)) :
    after (((ops (F := Ideal)).drop 74).take 35) W (Proc.devRef .tc main_arg11) = W (Proc.devRef .tc main_arg11) := by
  simp only [ops, List.drop_succ_cons, List.drop_zero, List.take_succ_cons, List.take_zero]
  after_results_simp <;> rfl

theorem S3_arg12 (W : Valuation τ sig (Elt Ideal)) :
    after (((ops (F := Ideal)).drop 74).take 35) W (Proc.devRef .tc main_arg12) = W (Proc.devRef .tc main_arg12) := by
  simp only [ops, List.drop_succ_cons, List.drop_zero, List.take_succ_cons, List.take_zero]
  after_results_simp <;> rfl

theorem S3_arg13 (W : Valuation τ sig (Elt Ideal)) :
    after (((ops (F := Ideal)).drop 74).take 35) W (Proc.devRef .tc main_arg13) = W (Proc.devRef .tc main_arg13) := by
  simp only [ops, List.drop_succ_cons, List.drop_zero, List.take_succ_cons, List.take_zero]
  after_results_simp <;> rfl

theorem S3_arg14 (W : Valuation τ sig (Elt Ideal)) :
    after (((ops (F := Ideal)).drop 74).take 35) W (Proc.devRef .tc main_arg14) = W (Proc.devRef .tc main_arg14) := by
  simp only [ops, List.drop_succ_cons, List.drop_zero, List.take_succ_cons, List.take_zero]
  after_results_simp <;> rfl

/-- The line is the three layers and the head, in order. -/
theorem all_cut : (ops (F := Ideal)) = (((ops (F := Ideal)).drop 0).take 39) ++ ((((ops (F := Ideal)).drop 39).take 35) ++ ((((ops (F := Ideal)).drop 74).take 35) ++ (((ops (F := Ideal)).drop 109).take 26))) := by
  simp only [ops, List.drop_succ_cons, List.drop_zero, List.take_succ_cons, List.take_zero, List.cons_append, List.nil_append]

/-- THE REFERENCE'S VALUE: over any contents W of the buffers, the fold of the whole line leaves the result buffer at
    the specification's output of the arguments as W holds them. -/
theorem result_eq (W : Valuation τ sig (Elt Ideal)) :
    after (ops (F := Ideal)) W (Proc.devRef .tc main_v88)
      = outR (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [all_cut, after_append, after_append, after_append, head_out, L3_out,
    S3_arg11, S3_arg12, S3_arg13, S3_arg14, L2_out,
    S2_v1, S2_v3, S2_arg8, S2_arg9, S2_arg10, S2_arg11, S2_arg12, S2_arg13, S2_arg14, L1_out,
    S1_src, S1_dst, S1_arg5, S1_arg6, S1_arg7, S1_arg8, S1_arg9, S1_arg10, S1_arg11, S1_arg12, S1_arg13, S1_arg14]
  rfl

/-! ## The arguments: no operation of the line writes one -/

theorem kept_arg0 (W : Valuation τ sig (Elt Ideal)) :
    after (ops (F := Ideal)) W (Proc.devRef .tc main_arg0) = W (Proc.devRef .tc main_arg0) := by
  simp only [ops]
  after_results_simp <;> rfl

theorem kept_arg1 (W : Valuation τ sig (Elt Ideal)) :
    after (ops (F := Ideal)) W (Proc.devRef .tc main_arg1) = W (Proc.devRef .tc main_arg1) := by
  simp only [ops]
  after_results_simp <;> rfl

theorem kept_arg2 (W : Valuation τ sig (Elt Ideal)) :
    after (ops (F := Ideal)) W (Proc.devRef .tc main_arg2) = W (Proc.devRef .tc main_arg2) := by
  simp only [ops]
  after_results_simp <;> rfl

theorem kept_arg3 (W : Valuation τ sig (Elt Ideal)) :
    after (ops (F := Ideal)) W (Proc.devRef .tc main_arg3) = W (Proc.devRef .tc main_arg3) := by
  simp only [ops]
  after_results_simp <;> rfl

theorem kept_arg4 (W : Valuation τ sig (Elt Ideal)) :
    after (ops (F := Ideal)) W (Proc.devRef .tc main_arg4) = W (Proc.devRef .tc main_arg4) := by
  simp only [ops]
  after_results_simp <;> rfl

theorem kept_arg5 (W : Valuation τ sig (Elt Ideal)) :
    after (ops (F := Ideal)) W (Proc.devRef .tc main_arg5) = W (Proc.devRef .tc main_arg5) := by
  simp only [ops]
  after_results_simp <;> rfl

theorem kept_arg6 (W : Valuation τ sig (Elt Ideal)) :
    after (ops (F := Ideal)) W (Proc.devRef .tc main_arg6) = W (Proc.devRef .tc main_arg6) := by
  simp only [ops]
  after_results_simp <;> rfl

theorem kept_arg7 (W : Valuation τ sig (Elt Ideal)) :
    after (ops (F := Ideal)) W (Proc.devRef .tc main_arg7) = W (Proc.devRef .tc main_arg7) := by
  simp only [ops]
  after_results_simp <;> rfl

theorem kept_arg8 (W : Valuation τ sig (Elt Ideal)) :
    after (ops (F := Ideal)) W (Proc.devRef .tc main_arg8) = W (Proc.devRef .tc main_arg8) := by
  simp only [ops]
  after_results_simp <;> rfl

theorem kept_arg9 (W : Valuation τ sig (Elt Ideal)) :
    after (ops (F := Ideal)) W (Proc.devRef .tc main_arg9) = W (Proc.devRef .tc main_arg9) := by
  simp only [ops]
  after_results_simp <;> rfl

theorem kept_arg10 (W : Valuation τ sig (Elt Ideal)) :
    after (ops (F := Ideal)) W (Proc.devRef .tc main_arg10) = W (Proc.devRef .tc main_arg10) := by
  simp only [ops]
  after_results_simp <;> rfl

theorem kept_arg11 (W : Valuation τ sig (Elt Ideal)) :
    after (ops (F := Ideal)) W (Proc.devRef .tc main_arg11) = W (Proc.devRef .tc main_arg11) := by
  simp only [ops]
  after_results_simp <;> rfl

theorem kept_arg12 (W : Valuation τ sig (Elt Ideal)) :
    after (ops (F := Ideal)) W (Proc.devRef .tc main_arg12) = W (Proc.devRef .tc main_arg12) := by
  simp only [ops]
  after_results_simp <;> rfl

theorem kept_arg13 (W : Valuation τ sig (Elt Ideal)) :
    after (ops (F := Ideal)) W (Proc.devRef .tc main_arg13) = W (Proc.devRef .tc main_arg13) := by
  simp only [ops]
  after_results_simp <;> rfl

theorem kept_arg14 (W : Valuation τ sig (Elt Ideal)) :
    after (ops (F := Ideal)) W (Proc.devRef .tc main_arg14) = W (Proc.devRef .tc main_arg14) := by
  simp only [ops]
  after_results_simp <;> rfl

end Cert.ReferenceIdeal.Walk

end
-- ==== Proof.lean ====
/-
  The certificate of a three-layer graph network against its reference.

  The network: on a graph of 50000 nodes and 600000 edges, three layers, each
      h ↦ relu( (agg(h) / d) · Wl + bl + h · Wr ),
  agg(h) the sum of h's rows over a node's incoming edges and d = max(1, in-degree), then a classifier
  relu(h · W1 + b1) · W2 + b2 and a row-wise log-softmax.  The reference computes all of it with host operations.
  The kernel program computes the neighbour sums with the same host operations, but the reciprocals 1 / d once, as a
  column, and each layer's dense step in a pallas_call over blocks of 5000 rows, as (agg(h) · (1 / d)) · Wl + …; the
  third call goes on to the classifier and the log-softmax in the same body.

  At the exact values the two programs compute one function.  Rounding a matrix product's operands to a shorter
  format is the identity, a product into the zero accumulator is the sum over the contracted axis, and the tiling by
  rows changes nothing since every step reads one row.  The one law used is x · (1 / d) = x / d on the extended reals
  for d ≠ 0 (both are x · d⁻¹), and d = max(1, ·) is never zero; no finiteness of the inputs is needed.

  Both values are brought to the specification's `outR` of the launched arguments: the kernel's through the fold of
  @main's segments (three call lemmas, each from blocks to the whole array), the reference's through the fold of its
  line of host operations, layer by layer.  The frames of the two kernel programs are the generated ones; the
  reference's frame is its run with the result dropped.  The idealization rewrote nothing, so `preserves` is trivial.
-/
import proofs.«178627_j91216515432812_2_alg».proof.Defs
import proofs.«178627_j91216515432812_2_alg».proof.Proof.Gen.Kernel
import proofs.«178627_j91216515432812_2_alg».proof.Proof.Gen.Kernel.Frame
import proofs.«178627_j91216515432812_2_alg».proof.Proof.Gen.KernelIdeal
import proofs.«178627_j91216515432812_2_alg».proof.Proof.Gen.KernelIdeal.Frame
import proofs.«178627_j91216515432812_2_alg».proof.Proof.Gen.ReferenceIdeal
import proofs.«178627_j91216515432812_2_alg».proof.Proof.Gen.Pre_finite_inputs
import proofs.«178627_j91216515432812_2_alg».proof.Proof.KernelRun
import proofs.«178627_j91216515432812_2_alg».proof.Proof.KWalk
import proofs.«178627_j91216515432812_2_alg».proof.Proof.RefRunP
import proofs.«178627_j91216515432812_2_alg».proof.Proof.RefValue
import Idealize.ShloMosaic.Adequacy
import Idealize.ShloMosaic.Init

set_option maxRecDepth 16384

noncomputable section

namespace Cert.Proof

open Idealize.ShloMosaic Idealize.SL.Sem Cert.Sage

theorem frame_k : Cert.frame_Kernel := fun m ρ _ => Cert.Kernel.Gen.frame m ρ

theorem frame_ki : Cert.frame_KernelIdeal := fun m ρ _ => Cert.KernelIdeal.Gen.frame m ρ

section Reference
open Cert.ReferenceIdeal Cert.ReferenceIdeal.Walk

/-- The reference terminates with its arguments unchanged: its run, every argument read back through the fold. -/
theorem frame_ri : Cert.frame_ReferenceIdeal := fun m ρ _ =>
  (θ_run Cert.ReferenceIdeal.defs _ _).mono (fun r h c =>
    ⟨(h c main_arg0).trans (kept_arg0 (StableHlo.launchContents m c)),
      (h c main_arg1).trans (kept_arg1 (StableHlo.launchContents m c)),
      (h c main_arg2).trans (kept_arg2 (StableHlo.launchContents m c)),
      (h c main_arg3).trans (kept_arg3 (StableHlo.launchContents m c)),
      (h c main_arg4).trans (kept_arg4 (StableHlo.launchContents m c)),
      (h c main_arg5).trans (kept_arg5 (StableHlo.launchContents m c)),
      (h c main_arg6).trans (kept_arg6 (StableHlo.launchContents m c)),
      (h c main_arg7).trans (kept_arg7 (StableHlo.launchContents m c)),
      (h c main_arg8).trans (kept_arg8 (StableHlo.launchContents m c)),
      (h c main_arg9).trans (kept_arg9 (StableHlo.launchContents m c)),
      (h c main_arg10).trans (kept_arg10 (StableHlo.launchContents m c)),
      (h c main_arg11).trans (kept_arg11 (StableHlo.launchContents m c)),
      (h c main_arg12).trans (kept_arg12 (StableHlo.launchContents m c)),
      (h c main_arg13).trans (kept_arg13 (StableHlo.launchContents m c)),
      (h c main_arg14).trans (kept_arg14 (StableHlo.launchContents m c))⟩)
    (Cert.ReferenceIdeal.ValueP.run_fold (F := Ideal) m ρ)

end Reference

theorem preserves : Cert.preserves_Kernel_KernelIdeal := trivial

/-- Both idealized programs end with the result buffer at the specification's output of the arguments. -/
theorem algebraic : Cert.algebraic_KernelIdeal_ReferenceIdeal := by
  intro m ρ m' ρ' _ hagree
  refine ⟨fun c => outR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · -- the kernel program: every unscoped buffer ends at the last boundary's contents
    refine (θ_run Cert.KernelIdeal.defs _ _).mono (fun r h c => ?_) (Cert.KernelIdeal.RunV.run_all (F := Ideal) m ρ)
    open Cert.KernelIdeal in
    exact ⟨(h c _ (Cert.KernelIdeal.Gen.mem_uc main_v49 (by decide))).trans (Cert.KernelIdeal.Walk.W8_v49 m ρ c),
        (h c _ (Cert.KernelIdeal.Gen.mem_uc main_arg0 (by decide))).trans (Cert.KernelIdeal.Gen.W8_main_arg0 m ρ c),
        (h c _ (Cert.KernelIdeal.Gen.mem_uc main_arg1 (by decide))).trans (Cert.KernelIdeal.Gen.W8_main_arg1 m ρ c),
        (h c _ (Cert.KernelIdeal.Gen.mem_uc main_arg2 (by decide))).trans (Cert.KernelIdeal.Gen.W8_main_arg2 m ρ c),
        (h c _ (Cert.KernelIdeal.Gen.mem_uc main_arg3 (by decide))).trans (Cert.KernelIdeal.Gen.W8_main_arg3 m ρ c),
        (h c _ (Cert.KernelIdeal.Gen.mem_uc main_arg4 (by decide))).trans (Cert.KernelIdeal.Gen.W8_main_arg4 m ρ c),
        (h c _ (Cert.KernelIdeal.Gen.mem_uc main_arg5 (by decide))).trans (Cert.KernelIdeal.Gen.W8_main_arg5 m ρ c),
        (h c _ (Cert.KernelIdeal.Gen.mem_uc main_arg6 (by decide))).trans (Cert.KernelIdeal.Gen.W8_main_arg6 m ρ c),
        (h c _ (Cert.KernelIdeal.Gen.mem_uc main_arg7 (by decide))).trans (Cert.KernelIdeal.Gen.W8_main_arg7 m ρ c),
        (h c _ (Cert.KernelIdeal.Gen.mem_uc main_arg8 (by decide))).trans (Cert.KernelIdeal.Gen.W8_main_arg8 m ρ c),
        (h c _ (Cert.KernelIdeal.Gen.mem_uc main_arg9 (by decide))).trans (Cert.KernelIdeal.Gen.W8_main_arg9 m ρ c),
        (h c _ (Cert.KernelIdeal.Gen.mem_uc main_arg10 (by decide))).trans (Cert.KernelIdeal.Gen.W8_main_arg10 m ρ c),
        (h c _ (Cert.KernelIdeal.Gen.mem_uc main_arg11 (by decide))).trans (Cert.KernelIdeal.Gen.W8_main_arg11 m ρ c),
        (h c _ (Cert.KernelIdeal.Gen.mem_uc main_arg12 (by decide))).trans (Cert.KernelIdeal.Gen.W8_main_arg12 m ρ c),
        (h c _ (Cert.KernelIdeal.Gen.mem_uc main_arg13 (by decide))).trans (Cert.KernelIdeal.Gen.W8_main_arg13 m ρ c),
        (h c _ (Cert.KernelIdeal.Gen.mem_uc main_arg14 (by decide))).trans (Cert.KernelIdeal.Gen.W8_main_arg14 m ρ c)⟩
  · -- the reference: every buffer ends at the fold of the line over the launch contents
    refine (θ_run Cert.ReferenceIdeal.defs _ _).mono (fun r h c => ?_) (Cert.ReferenceIdeal.ValueP.run_fold (F := Ideal) m' ρ')
    open Cert.ReferenceIdeal Cert.ReferenceIdeal.Walk in
    refine ⟨(h c main_v88).trans ((result_eq (StableHlo.launchContents m' c)).trans ?_),
      (h c main_arg0).trans (kept_arg0 (StableHlo.launchContents m' c)),
      (h c main_arg1).trans (kept_arg1 (StableHlo.launchContents m' c)),
      (h c main_arg2).trans (kept_arg2 (StableHlo.launchContents m' c)),
      (h c main_arg3).trans (kept_arg3 (StableHlo.launchContents m' c)),
      (h c main_arg4).trans (kept_arg4 (StableHlo.launchContents m' c)),
      (h c main_arg5).trans (kept_arg5 (StableHlo.launchContents m' c)),
      (h c main_arg6).trans (kept_arg6 (StableHlo.launchContents m' c)),
      (h c main_arg7).trans (kept_arg7 (StableHlo.launchContents m' c)),
      (h c main_arg8).trans (kept_arg8 (StableHlo.launchContents m' c)),
      (h c main_arg9).trans (kept_arg9 (StableHlo.launchContents m' c)),
      (h c main_arg10).trans (kept_arg10 (StableHlo.launchContents m' c)),
      (h c main_arg11).trans (kept_arg11 (StableHlo.launchContents m' c)),
      (h c main_arg12).trans (kept_arg12 (StableHlo.launchContents m' c)),
      (h c main_arg13).trans (kept_arg13 (StableHlo.launchContents m' c)),
      (h c main_arg14).trans (kept_arg14 (StableHlo.launchContents m' c))⟩
    obtain ⟨e0, e1, e2, e3, e4, e5, e6, e7, e8, e9, e10, e11, e12, e13, e14⟩ := hagree c
    show outR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
